-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 59
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S1x128, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S_, .f32⟩
  | .hbm, ⟨54, _⟩ => ⟨S100000x64, .f32⟩
  | .hbm, ⟨55, _⟩ => ⟨S1700000x1, .i32⟩
  | .hbm, ⟨56, _⟩ => ⟨S100000x64, .f32⟩
  | .hbm, ⟨57, _⟩ => ⟨S1x64, .f32⟩
  | .hbm, ⟨58, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x1, .f32⟩
  | .local _ .vmem, ⟨18, _⟩ => ⟨S2000x1, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibRowScatter.lean ====
/-
  Gathering rows of an array, and scatter-adding rows into an array, at a column of row numbers, read at an entry.

  `x[idx]` for an array `x` of `N` rows (of `C` numbers each, or of one number) and a column `idx` of `R` row numbers is
  a gather whose row `e` is row `clampRow idx e` of `x`: the row number read as a signed integer and clamped into
  `[0, N - 1]`.  `x.at[idx].add(u)` adds row `e` of `u` to row `idx e` of `x` when that signed number is a row of `x`,
  and drops it when it is not: over the extended reals entry `(n, c)` of the result is entry `(n, c)` of `x` plus the
  sum of `u e c` over the rows `e` whose number is `n`.
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

variable {α : Type}

/-! ## Closed facts about the axis lists of rank 1 and rank 2 -/

theorem kept2_0 : (List.finRange 2).filter (fun a : Fin 2 => a ∉ ([0] ++ [] : List (Fin 2))) = [1] := by decide
theorem kept2_0' : (List.finRange 2).filter (fun a : Fin 2 => a ∉ ([0] : List (Fin 2))) = [1] := by decide
theorem kept1_0 : (List.finRange 1).filter (fun a : Fin 1 => a ∉ ([0] ++ [] : List (Fin 1))) = [] := by decide
theorem kept1_0' : (List.finRange 1).filter (fun a : Fin 1 => a ∉ ([0] : List (Fin 1))) = [] := by decide
theorem idxOf_1 : List.idxOf (1 : Fin 2) [1] = 0 := by decide
theorem one_not_mem : (1 : Fin 2) ∉ ([0] : List (Fin 2)) := by decide
theorem zero_not_mem_one : (0 : Fin 2) ∉ ([1] : List (Fin 2)) := by decide

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The column of row numbers -/

/-- Entry `e` of a column of `R` row numbers, read as a signed integer. -/
def rowNo {R w : Nat} (idx : IVec ⟨2, ![R, 1]⟩ w) (e : Fin R) : Int := (idx (ix2 e (0 : Fin 1))).toInt

/-- The row a gather reads for entry `e`: its signed number clamped into `[0, N - 1]`. -/
def clampRow {R w : Nat} (N : Nat) (hN : 0 < N) (idx : IVec ⟨2, ![R, 1]⟩ w) (e : Fin R) : Fin N :=
  ⟨min (rowNo idx e).toNat (N - 1), by omega⟩

/-- A signed number that is a row is its own clamp. -/
theorem clampRow_of_rowNo {R w : Nat} (N : Nat) (hN : 0 < N) (idx : IVec ⟨2, ![R, 1]⟩ w) (e : Fin R) (n : Fin N)
    (h : rowNo idx e = (n.val : Int)) : clampRow N hN idx e = n := by
  apply Fin.ext
  show min (rowNo idx e).toNat (N - 1) = n.val
  have := n.isLt
  rw [h]; omega

/-! ## Rows of a rank-2 array gathered -/

/-- The dimension numbers of `x[idx]` for `x : [N, C]`, `idx : [R, 1]`: result `[R, C]`. -/
abbrev gatherRows (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section GatherRows
variable {N R C w : Nat} (wf : GatherDims.WF ⟨2, ![N, C]⟩ ⟨2, ![R, 1]⟩ ⟨2, ![R, C]⟩ [1] [0] [] [0] [] 1 ![1, C])
  (idx : IVec ⟨2, ![R, 1]⟩ w) (e : Fin R) (k : Fin C)

theorem gatherRows_sKept : (gatherRows N R C wf).sKept = [1] := kept2_0

theorem gatherRows_axis0 (hN : 0 < N) :
    (gatherRows N R C wf).start (ix2 e k) idx (0 : Fin 2) + (gatherRows N R C wf).batchCoord (ix2 e k) (0 : Fin 2)
      + (gatherRows N R C wf).offCoord (ix2 e k) (0 : Fin 2) = (clampRow N hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N R C wf).startIndexMap from List.mem_singleton.mpr rfl)]
  have hsi : (gatherRows N R C wf).siIdx (ix2 e k) ⟨List.idxOf (0 : Fin 2) (gatherRows N R C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gatherRows_axis1 :
    (gatherRows N R C wf).start (ix2 e k) idx (1 : Fin 2) + (gatherRows N R C wf).batchCoord (ix2 e k) (1 : Fin 2)
      + (gatherRows N R C wf).offCoord (ix2 e k) (1 : Fin 2) = k.val := by
  rw [GatherDims.batchCoord_eq_zero _ _ _ List.not_mem_nil]
  have hs : (gatherRows N R C wf).start (ix2 e k) idx (1 : Fin 2) = 0 := by
    unfold GatherDims.start
    rw [dif_neg one_not_mem]
  have ho : (gatherRows N R C wf).offCoord (ix2 e k) (1 : Fin 2) = k.val := by
    unfold GatherDims.offCoord
    rw [dif_pos (by rw [gatherRows_sKept]; exact List.mem_singleton.mpr rfl)]
    have h : List.idxOf (1 : Fin 2) (gatherRows N R C wf).sKept = 0 := by rw [gatherRows_sKept]; exact idxOf_1
    simp only [h]
    rfl
  rw [hs, ho]; omega

/-- Row `e` of the gather is row `clampRow idx e` of the operand. -/
theorem gatherRows_apply (hN : 0 < N) (x : (⟨2, ![N, C]⟩ : Shape).Idx → α) :
    Host.gather (gatherRows N R C wf) x idx (ix2 e k) = x (ix2 (clampRow N hN idx e) k) := by
  unfold Host.gather
  congr 1
  funext a
  refine Fin.ext ?_
  revert a
  refine Fin.forall_fin_two.mpr ⟨?_, ?_⟩
  · exact gatherRows_axis0 wf idx e k hN
  · exact gatherRows_axis1 wf idx e k

end GatherRows

/-! ## Entries of a rank-1 array gathered -/

/-- The dimension numbers of `x[idx]` for `x : [N]`, `idx : [R, 1]`: result `[R]`. -/
abbrev gatherCol (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `e` of the gather is entry `clampRow idx e` of the operand. -/
theorem gatherCol_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (gatherCol N R wf) x idx (ix1 e) = x (ix1 (clampRow N hN idx e)) := by
  unfold Host.gather
  congr 1
  funext a
  obtain rfl : a = 0 := Subsingleton.elim _ _
  refine Fin.ext ?_
  show (gatherCol N R wf).start (ix1 e) idx 0 + (gatherCol N R wf).batchCoord (ix1 e) 0
    + (gatherCol N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherCol N R wf).startIndexMap from List.mem_singleton.mpr rfl)]
  have hsi : (gatherCol N R wf).siIdx (ix1 e) ⟨List.idxOf (0 : Fin 1) (gatherCol N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows scatter-added into a rank-2 array -/

/-- The dimension numbers of `x.at[idx].add(u)` for `x : [N, C]`, `idx : [R, 1]`, `u : [R, C]`. -/
abbrev scatterRows (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section ScatterRows
variable {N R C w : Nat} (wf : ScatterDims.WF ⟨2, ![N, C]⟩ ⟨2, ![R, 1]⟩ ⟨2, ![R, C]⟩ [1] [0] [0] 1)
  (idx : IVec ⟨2, ![R, 1]⟩ w) (e : Fin R) (k : Fin C)

theorem scatterRows_sKept : (scatterRows N R C wf).sKept = [1] := kept2_0'

theorem scatterRows_axis0 :
    (scatterRows N R C wf).start (ix2 e k) idx (0 : Fin 2) + ((scatterRows N R C wf).window (ix2 e k) (0 : Fin 2) : Int)
      = rowNo idx e := by
  have hw : (scatterRows N R C wf).window (ix2 e k) (0 : Fin 2) = 0 := by
    unfold ScatterDims.window
    rw [dif_neg (by rw [scatterRows_sKept]; exact zero_not_mem_one)]
  have hs : (scatterRows N R C wf).start (ix2 e k) idx (0 : Fin 2) = rowNo idx e := by
    unfold ScatterDims.start
    rw [dif_pos (show (0 : Fin 2) ∈ (scatterRows N R C wf).scatterDimsToOperandDims from List.mem_singleton.mpr rfl)]
    have hsi : (scatterRows N R C wf).siIdx (ix2 e k)
        ⟨List.idxOf (0 : Fin 2) (scatterRows N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

theorem scatterRows_axis1 :
    (scatterRows N R C wf).start (ix2 e k) idx (1 : Fin 2) + ((scatterRows N R C wf).window (ix2 e k) (1 : Fin 2) : Int)
      = (k.val : Int) := by
  have hs : (scatterRows N R C wf).start (ix2 e k) idx (1 : Fin 2) = 0 := by
    unfold ScatterDims.start
    rw [dif_neg one_not_mem]
  have hw : (scatterRows N R C wf).window (ix2 e k) (1 : Fin 2) = k.val := by
    unfold ScatterDims.window
    rw [dif_pos (by rw [scatterRows_sKept]; exact List.mem_singleton.mpr rfl)]
    have h : List.idxOf (1 : Fin 2) (scatterRows N R C wf).sKept = 0 := by rw [scatterRows_sKept]; exact idxOf_1
    simp only [h]
    rfl
  rw [hs, hw]; simp

/-- Update `(e, k)` lands on entry `(n, c)` exactly when row `e`'s signed number is `n` and `k = c`. -/
theorem scatterRows_resultIdx (n : Fin N) (c : Fin C) :
    (scatterRows N R C wf).resultIdx? (ix2 e k) idx = some (ix2 n c) ↔ rowNo idx e = (n.val : Int) ∧ k = c := by
  have h0 := scatterRows_axis0 wf idx e k
  have h1 := scatterRows_axis1 wf idx e k
  unfold ScatterDims.resultIdx?
  split
  · rename_i h
    rw [Option.some.injEq]
    constructor
    · intro hi
      have e0 := congrArg Fin.val (congrFun hi (0 : Fin 2))
      have e1 := congrArg Fin.val (congrFun hi (1 : Fin 2))
      have p0 := (h (0 : Fin 2)).1
      refine ⟨?_, Fin.ext ?_⟩
      · have e0' : ((scatterRows N R C wf).start (ix2 e k) idx (0 : Fin 2)
            + ((scatterRows N R C wf).window (ix2 e k) (0 : Fin 2) : Int)).toNat = n.val := e0
        rw [h0] at e0' p0
        omega
      · have e1' : ((scatterRows N R C wf).start (ix2 e k) idx (1 : Fin 2)
            + ((scatterRows N R C wf).window (ix2 e k) (1 : Fin 2) : Int)).toNat = c.val := e1
        rw [h1] at e1'
        omega
    · rintro ⟨hr, rfl⟩
      funext a
      refine Fin.ext ?_
      revert a
      refine Fin.forall_fin_two.mpr ⟨?_, ?_⟩
      · show ((scatterRows N R C wf).start (ix2 e k) idx (0 : Fin 2)
            + ((scatterRows N R C wf).window (ix2 e k) (0 : Fin 2) : Int)).toNat = n.val
        rw [h0, hr]; simp
      · show ((scatterRows N R C wf).start (ix2 e k) idx (1 : Fin 2)
            + ((scatterRows N R C wf).window (ix2 e k) (1 : Fin 2) : Int)).toNat = k.val
        rw [h1]; simp
  · rename_i h
    constructor
    · intro hi; exact absurd hi (by simp)
    · rintro ⟨hr, rfl⟩
      exfalso
      apply h
      refine Fin.forall_fin_two.mpr ⟨?_, ?_⟩
      · show 0 ≤ (scatterRows N R C wf).start (ix2 e k) idx (0 : Fin 2)
            + ((scatterRows N R C wf).window (ix2 e k) (0 : Fin 2) : Int)
          ∧ (scatterRows N R C wf).start (ix2 e k) idx (0 : Fin 2)
            + ((scatterRows N R C wf).window (ix2 e k) (0 : Fin 2) : Int) < (N : Int)
        rw [h0, hr]
        have := n.isLt
        constructor <;> omega
      · show 0 ≤ (scatterRows N R C wf).start (ix2 e k) idx (1 : Fin 2)
            + ((scatterRows N R C wf).window (ix2 e k) (1 : Fin 2) : Int)
          ∧ (scatterRows N R C wf).start (ix2 e k) idx (1 : Fin 2)
            + ((scatterRows N R C wf).window (ix2 e k) (1 : Fin 2) : Int) < (C : Int)
        rw [h1]
        have := k.isLt
        constructor <;> omega

end ScatterRows

/-- Over the extended reals, entry `(n, c)` after the scatter-add is the entry before plus the sum of `u e c` over
    the rows `e` whose signed number is `n`. -/
theorem scatterAddRows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (u : (⟨2, ![R, C]⟩ : Shape).Idx → EReal)
    (n : Fin N) (c : Fin C) :
    Ideal.hostScatterAdd (scatterRows N R C wf) x idx u (ix2 n c)
      = x (ix2 n c) + ∑ e ∈ Finset.univ.filter (fun e : Fin R => rowNo idx e = (n.val : Int)), u (ix2 e c) := by
  unfold Ideal.hostScatterAdd
  congr 1
  rw [Finset.sum_filter, sum_idx2, Finset.sum_filter]
  refine Finset.sum_congr rfl fun e _ => ?_
  simp only [scatterRows_resultIdx]
  by_cases h : rowNo idx e = (n.val : Int)
  · simp [h]
  · simp [h]

/-- The same for the host operation at the ideal values, whose meaning that sum is. -/
theorem hostScatterAddRows_apply {φ : FTy} {N R C w : Nat}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (u : FVec Ideal ⟨2, ![R, C]⟩ φ) (n : Fin N) (c : Fin C) :
    Host.scatterAdd (scatterRows N R C wf) x idx u (ix2 n c)
      = x (ix2 n c) + ∑ e ∈ Finset.univ.filter (fun e : Fin R => rowNo idx e = (n.val : Int)), u (ix2 e c) :=
  scatterAddRows_apply wf x idx u n c

/-! ## Entries scatter-added into a rank-1 array -/

/-- The dimension numbers of `x.at[idx].add(u)` for `x : [N]`, `idx : [R, 1]`, `u : [R]`. -/
abbrev scatterCol (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section ScatterCol
variable {N R w : Nat} (wf : ScatterDims.WF ⟨1, ![N]⟩ ⟨2, ![R, 1]⟩ ⟨1, ![R]⟩ [] [0] [0] 1)
  (idx : IVec ⟨2, ![R, 1]⟩ w) (e : Fin R)

theorem scatterCol_axis0 :
    (scatterCol N R wf).start (ix1 e) idx (0 : Fin 1) + ((scatterCol N R wf).window (ix1 e) (0 : Fin 1) : Int)
      = rowNo idx e := by
  have hw : (scatterCol N R wf).window (ix1 e) (0 : Fin 1) = 0 := by
    unfold ScatterDims.window
    rw [dif_neg (by rw [show (scatterCol N R wf).sKept = [] from kept1_0']; exact List.not_mem_nil)]
  have hs : (scatterCol N R wf).start (ix1 e) idx (0 : Fin 1) = rowNo idx e := by
    unfold ScatterDims.start
    rw [dif_pos (show (0 : Fin 1) ∈ (scatterCol N R wf).scatterDimsToOperandDims from List.mem_singleton.mpr rfl)]
    have hsi : (scatterCol N R wf).siIdx (ix1 e)
        ⟨List.idxOf (0 : Fin 1) (scatterCol N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

/-- Update `e` lands on entry `n` exactly when its signed number is `n`. -/
theorem scatterCol_resultIdx (n : Fin N) :
    (scatterCol N R wf).resultIdx? (ix1 e) idx = some (ix1 n) ↔ rowNo idx e = (n.val : Int) := by
  have h0 := scatterCol_axis0 wf idx e
  unfold ScatterDims.resultIdx?
  split
  · rename_i h
    rw [Option.some.injEq]
    constructor
    · intro hi
      have e0 : ((scatterCol N R wf).start (ix1 e) idx (0 : Fin 1)
          + ((scatterCol N R wf).window (ix1 e) (0 : Fin 1) : Int)).toNat = n.val :=
        congrArg Fin.val (congrFun hi (0 : Fin 1))
      have p0 := (h (0 : Fin 1)).1
      rw [h0] at e0 p0
      omega
    · intro hr
      funext a
      obtain rfl : a = 0 := Subsingleton.elim _ _
      refine Fin.ext ?_
      show ((scatterCol N R wf).start (ix1 e) idx (0 : Fin 1)
          + ((scatterCol N R wf).window (ix1 e) (0 : Fin 1) : Int)).toNat = n.val
      rw [h0, hr]; simp
  · rename_i h
    constructor
    · intro hi; exact absurd hi (by simp)
    · intro hr
      exfalso
      apply h
      intro a
      obtain rfl : a = 0 := Subsingleton.elim _ _
      show 0 ≤ (scatterCol N R wf).start (ix1 e) idx (0 : Fin 1)
          + ((scatterCol N R wf).window (ix1 e) (0 : Fin 1) : Int)
        ∧ (scatterCol N R wf).start (ix1 e) idx (0 : Fin 1)
          + ((scatterCol N R wf).window (ix1 e) (0 : Fin 1) : Int) < (N : Int)
      rw [h0, hr]
      have := n.isLt
      constructor <;> omega

end ScatterCol

/-- Over the extended reals, entry `n` after the scatter-add is the entry before plus the sum of `u e` over the
    entries `e` whose signed number is `n`. -/
theorem scatterAddCol_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (u : (⟨1, ![R]⟩ : Shape).Idx → EReal) (n : Fin N) :
    Ideal.hostScatterAdd (scatterCol N R wf) x idx u (ix1 n)
      = x (ix1 n) + ∑ e ∈ Finset.univ.filter (fun e : Fin R => rowNo idx e = (n.val : Int)), u (ix1 e) := by
  unfold Ideal.hostScatterAdd
  congr 1
  rw [Finset.sum_filter, sum_idx1, Finset.sum_filter]
  refine Finset.sum_congr rfl fun e _ => ?_
  simp only [scatterCol_resultIdx]

end Idealize.ShloMosaic.RowScatter

end
-- ==== Proof.LibGraphConv.lean ====
/-
  Two spellings of a graph convolution with symmetric degree normalisation agree on the extended reals.

  Nodes `Fin N`, edges `Fin E`; edge `e` reads its message from node `s e` and the edges that land on node `v` form the
  finite set `P v`. With a weight `d` per node, one propagation of a node feature `H` can apply the normalisation
    per EDGE:  ∑ e ∈ P v, H (s e) c · (d (s e) · d (t e))           (the weight of the target node `t e` looked up per edge),
    per NODE: (∑ e ∈ P v, H (s e) c · d (s e)) · d v                (the target's weight applied once, after the sum).
  When every edge of `P v` has target `v`, the two agree as soon as `0 ≤ d v` and `d v ≠ ⊤`: multiplication of extended reals is
  associative, and multiplication by a nonnegative factor that is not the top distributes over a finite sum whatever the
  summands (infinite ones of either sign included). No finiteness of `H` is needed. Two such propagations, with an affine
  map, a bias and a rectifier between them, therefore agree too.
-/
import Mathlib.Data.EReal.Operations
import Mathlib.Data.EReal.Inv
import Mathlib.Algebra.BigOperators.Fin

noncomputable section

open scoped BigOperators

namespace GraphConv

variable {N E A B C : ℕ}

/-- A nonnegative factor that is not the top distributes over a finite sum of extended reals. -/
theorem sum_mul_of_nonneg_of_ne_top {ι : Type*} (S : Finset ι) (y : ι → EReal) {d : EReal} (h0 : 0 ≤ d) (ht : d ≠ ⊤) :
    (∑ e ∈ S, y e) * d = ∑ e ∈ S, y e * d := by
  classical
  induction S using Finset.induction_on with
  | empty => simp
  | insert a S ha ih =>
    rw [Finset.sum_insert ha, Finset.sum_insert ha, EReal.right_distrib_of_nonneg_of_ne_top h0 ht, ih]

/-- An affine map's linear part: row `r` of `X` against column `f` of `W`. -/
def lin (X : Fin N → Fin A → EReal) (W : Fin A → Fin B → EReal) (r : Fin N) (f : Fin B) : EReal :=
  ∑ k : Fin A, X r k * W k f

/-- One propagation, the target's weight applied once per node after the sum. -/
def propNode (P : Fin N → Finset (Fin E)) (s : Fin E → Fin N) (d : Fin N → EReal) (H : Fin N → Fin C → EReal)
    (v : Fin N) (c : Fin C) : EReal :=
  (∑ e ∈ P v, H (s e) c * d (s e)) * d v

/-- One propagation, both weights applied per edge. -/
def propEdge (P : Fin N → Finset (Fin E)) (s t : Fin E → Fin N) (d : Fin N → EReal) (H : Fin N → Fin C → EReal)
    (v : Fin N) (c : Fin C) : EReal :=
  ∑ e ∈ P v, H (s e) c * (d (s e) * d (t e))

/-- The two propagations are one function when every edge landing on `v` has target `v` and the weights lie in `[0, ⊤)`. -/
theorem propNode_eq_propEdge (P : Fin N → Finset (Fin E)) (s t : Fin E → Fin N) (d : Fin N → EReal)
    (h0 : ∀ v, 0 ≤ d v) (ht : ∀ v, d v ≠ ⊤) (hP : ∀ v, ∀ e ∈ P v, t e = v) (H : Fin N → Fin C → EReal) :
    propNode P s d H = propEdge P s t d H := by
  funext v c
  unfold propNode propEdge
  rw [sum_mul_of_nonneg_of_ne_top _ _ (h0 v) (ht v)]
  refine Finset.sum_congr rfl fun e he => ?_
  rw [hP v e he, mul_assoc]

/-- Two layers, normalisation per node: propagate `x·W₁`, add `b₁`, rectify, propagate the result times `W₂`, add `b₂`. -/
def netNode (P : Fin N → Finset (Fin E)) (s : Fin E → Fin N) (d : Fin N → EReal)
    (x : Fin N → Fin A → EReal) (W₁ : Fin A → Fin B → EReal) (b₁ : Fin B → EReal)
    (W₂ : Fin B → Fin C → EReal) (b₂ : Fin C → EReal) (v : Fin N) (g : Fin C) : EReal :=
  propNode P s d (lin (fun r f => max (propNode P s d (lin x W₁) r f + b₁ f) 0) W₂) v g + b₂ g

/-- Two layers, normalisation per edge. -/
def netEdge (P : Fin N → Finset (Fin E)) (s t : Fin E → Fin N) (d : Fin N → EReal)
    (x : Fin N → Fin A → EReal) (W₁ : Fin A → Fin B → EReal) (b₁ : Fin B → EReal)
    (W₂ : Fin B → Fin C → EReal) (b₂ : Fin C → EReal) (v : Fin N) (g : Fin C) : EReal :=
  propEdge P s t d (lin (fun r f => max (propEdge P s t d (lin x W₁) r f + b₁ f) 0) W₂) v g + b₂ g

/-- The two networks are one function. -/
theorem netNode_eq_netEdge (P : Fin N → Finset (Fin E)) (s t : Fin E → Fin N) (d : Fin N → EReal)
    (h0 : ∀ v, 0 ≤ d v) (ht : ∀ v, d v ≠ ⊤) (hP : ∀ v, ∀ e ∈ P v, t e = v)
    (x : Fin N → Fin A → EReal) (W₁ : Fin A → Fin B → EReal) (b₁ : Fin B → EReal)
    (W₂ : Fin B → Fin C → EReal) (b₂ : Fin C → EReal) :
    netNode P s d x W₁ b₁ W₂ b₂ = netEdge P s t d x W₁ b₁ W₂ b₂ := by
  funext v g
  unfold netNode netEdge
  rw [propNode_eq_propEdge P s t d h0 ht hP, propNode_eq_propEdge P s t d h0 ht hP]

end GraphConv

end
-- ==== Proof.RefValue.lean ====
/-
  The reference's result, read at an entry, is a two-layer graph convolution with the normalisation applied per edge.

  The reference builds 1700000 edges (the given ones followed by one self loop per node), a weight per node (the
  reciprocal square root of the node's in-degree where that is positive, zero elsewhere) and a weight per edge (the
  product of the weights of the edge's two ends, each looked up by a gather). A layer gathers the rows of `H·W` at the
  edges' sources, scales row `e` by the weight of edge `e`, and scatter-adds the rows into a zero array at the edges'
  targets; the first layer adds a bias and rectifies, the second adds a bias.

  Read at an entry: a gather at a column of row numbers reads the operand at the clamped row; a scatter-add into the
  zero array holds at `(n, c)` the sum of the updates' entries `(e, c)` over the rows `e` whose number is `n`; a
  product of matrices holds at `(a, b)` the sum over `c` of `A[a,c] · B[c,b]`. Chained, entry `(v, g)` of the result is
  `GraphConv.netEdge` over the edge sets, the two ends and the node weights the reference reads.
-/
import proofs.«108439_j47674136985664_2_alg».proof.Proof.ReferenceRead
import proofs.«108439_j47674136985664_2_alg».proof.Proof.LibRowScatter
import proofs.«108439_j47674136985664_2_alg».proof.Proof.LibGraphConv

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.RowScatter

/-! ## The printed dimension records are the row gather, the entry gather and the row scatter -/

theorem gatherCol_rec :
    gather_S100000_S1700000x1_S1700000_n_0_n_n_0_1_1
      = gatherCol 100000 1700000 gather_S100000_S1700000x1_S1700000_n_0_n_n_0_1_1_wf := rfl

theorem gatherRows128_rec :
    gather_S100000x128_S1700000x1_S1700000x128_1_0_n_n_0_1_1128
      = gatherRows 100000 1700000 128 gather_S100000x128_S1700000x1_S1700000x128_1_0_n_n_0_1_1128_wf := rfl

theorem gatherRows64_rec :
    gather_S100000x64_S1700000x1_S1700000x64_1_0_n_n_0_1_164
      = gatherRows 100000 1700000 64 gather_S100000x64_S1700000x1_S1700000x64_1_0_n_n_0_1_164_wf := rfl

theorem scatterRows128_rec :
    scatter_S100000x128_S1700000x1_S1700000x128_1_0_0_1
      = scatterRows 100000 1700000 128 scatter_S100000x128_S1700000x1_S1700000x128_1_0_0_1_wf := rfl

theorem scatterRows64_rec :
    scatter_S100000x64_S1700000x1_S1700000x64_1_0_0_1
      = scatterRows 100000 1700000 64 scatter_S100000x64_S1700000x1_S1700000x64_1_0_0_1_wf := rfl

/-! ## The index columns that the program builds three times are one column -/

theorem v42_eq (x1 : IVec S2x1600000 32) : val_main_v42 (F := Ideal) x1 = val_main_v9 (F := Ideal) x1 := rfl
theorem v60_eq (x1 : IVec S2x1600000 32) : val_main_v60 (F := Ideal) x1 = val_main_v9 (F := Ideal) x1 := rfl
theorem v36_eq (x1 : IVec S2x1600000 32) : val_main_v36 (F := Ideal) x1 = val_main_v20 (F := Ideal) x1 := rfl
theorem v54_eq (x1 : IVec S2x1600000 32) : val_main_v54 (F := Ideal) x1 = val_main_v20 (F := Ideal) x1 := rfl

/-! ## The graph the reference reads: the edges landing on a node, an edge's two ends, a node's weight -/

/-- The edges whose target word, read signed, is node `n`. -/
def inEdges (x1 : IVec S2x1600000 32) (n : Fin 100000) : Finset (Fin 1700000) :=
  Finset.univ.filter fun e : Fin 1700000 => rowNo (val_main_v9 (F := Ideal) x1) e = (n.val : Int)

/-- The node an edge reads its message from: its wrapped source word, clamped to a row. -/
def src (x1 : IVec S2x1600000 32) (e : Fin 1700000) : Fin 100000 :=
  clampRow 100000 (by decide) (val_main_v20 (F := Ideal) x1) e

/-- The node whose weight an edge looks up as its target's: its wrapped target word, clamped to a row. -/
def tgt (x1 : IVec S2x1600000 32) (e : Fin 1700000) : Fin 100000 :=
  clampRow 100000 (by decide) (val_main_v27 (F := Ideal) x1) e

/-- A node's weight. -/
def wt (x1 : IVec S2x1600000 32) (n : Fin 100000) : EReal := val_main_v14 (F := Ideal) x1 (ix1 n)

/-! ## The weight of an edge -/

theorem v21_apply (x1 : IVec S2x1600000 32) (e : Fin 1700000) :
    val_main_v21 (F := Ideal) x1 (ix1 e) = wt x1 (src x1 e) := by
  unfold val_main_v21
  rw [gatherCol_rec]
  exact gatherCol_apply (by decide) _ _ _ e

theorem v28_apply (x1 : IVec S2x1600000 32) (e : Fin 1700000) :
    val_main_v28 (F := Ideal) x1 (ix1 e) = wt x1 (tgt x1 e) := by
  unfold val_main_v28
  rw [gatherCol_rec]
  exact gatherCol_apply (by decide) _ _ _ e

theorem v29_apply (x1 : IVec S2x1600000 32) (e : Fin 1700000) :
    val_main_v29 (F := Ideal) x1 (ix1 e) = wt x1 (src x1 e) * wt x1 (tgt x1 e) := by
  rw [val_main_v29_apply, Ideal.mulf_def, v21_apply, v28_apply]

/-! ## The first layer -/

theorem lidx30 (r : Fin 100000) (f : Fin 128) (k : Fin 256) : lidx_main_v30 (ix2 r f) k = ix2 r k :=
  funext fun a => Fin.ext (by match a with | ⟨0, _⟩ => rfl | ⟨1, _⟩ => rfl)

theorem ridx30 (r : Fin 100000) (f : Fin 128) (k : Fin 256) : ridx_main_v30 (ix2 r f) k = ix2 k f :=
  funext fun a => Fin.ext (by match a with | ⟨0, _⟩ => rfl | ⟨1, _⟩ => rfl)

theorem v30_apply (x0 : FVec Ideal S100000x256 .f32) (x2 : FVec Ideal S256x128 .f32) (r : Fin 100000) (f : Fin 128) :
    val_main_v30 (F := Ideal) x0 x2 (ix2 r f)
      = GraphConv.lin (fun r k => x0 (ix2 r k)) (fun k f => x2 (ix2 k f)) r f := by
  rw [val_main_v30_apply]
  unfold GraphConv.lin
  exact Finset.sum_congr rfl fun k _ => by rw [lidx30, ridx30]

theorem v37_apply (x0 : FVec Ideal S100000x256 .f32) (x1 : IVec S2x1600000 32) (x2 : FVec Ideal S256x128 .f32)
    (e : Fin 1700000) (f : Fin 128) :
    val_main_v37 (F := Ideal) x0 x1 x2 (ix2 e f) = val_main_v30 (F := Ideal) x0 x2 (ix2 (src x1 e) f) := by
  unfold val_main_v37
  rw [gatherRows128_rec, v36_eq]
  exact gatherRows_apply _ _ e f (by decide) _

theorem idx39 (e : Fin 1700000) (f : Fin 128) : idx_main_v38 (idx_main_v39 (ix2 e f)) = ix1 e :=
  funext fun a => Fin.ext (by match a with | ⟨0, _⟩ => rfl)

theorem v39_apply (x1 : IVec S2x1600000 32) (e : Fin 1700000) (f : Fin 128) :
    val_main_v39 (F := Ideal) x1 (ix2 e f) = val_main_v29 (F := Ideal) x1 (ix1 e) := by
  rw [val_main_v39_apply, val_main_v38_apply, idx39]

theorem v40_apply (x0 : FVec Ideal S100000x256 .f32) (x1 : IVec S2x1600000 32) (x2 : FVec Ideal S256x128 .f32)
    (e : Fin 1700000) (f : Fin 128) :
    val_main_v40 (F := Ideal) x0 x1 x2 (ix2 e f)
      = GraphConv.lin (fun r k => x0 (ix2 r k)) (fun k f => x2 (ix2 k f)) (src x1 e) f
          * (wt x1 (src x1 e) * wt x1 (tgt x1 e)) := by
  rw [val_main_v40_apply, Ideal.mulf_def, v37_apply, v30_apply, v39_apply, v29_apply]

theorem v41_apply (i : S100000x128.Idx) : val_main_v41 (F := Ideal) i = 0 := by
  rw [val_main_v41_apply, val_main_cst_8_apply, Ideal.ofBits_def, Ideal.ofBits_zero_f32]

theorem v43_apply (x0 : FVec Ideal S100000x256 .f32) (x1 : IVec S2x1600000 32) (x2 : FVec Ideal S256x128 .f32)
    (n : Fin 100000) (f : Fin 128) :
    val_main_v43 (F := Ideal) x0 x1 x2 (ix2 n f)
      = GraphConv.propEdge (inEdges x1) (src x1) (tgt x1) (wt x1)
          (GraphConv.lin (fun r k => x0 (ix2 r k)) (fun k f => x2 (ix2 k f))) n f := by
  unfold val_main_v43
  rw [scatterRows128_rec, v42_eq, hostScatterAddRows_apply, v41_apply, zero_add]
  unfold GraphConv.propEdge inEdges
  exact Finset.sum_congr rfl fun e _ => v40_apply x0 x1 x2 e f

theorem idx45 (n : Fin 100000) (f : Fin 128) : idx_main_v44 (idx_main_v45 (ix2 n f)) = ix1 f :=
  funext fun a => Fin.ext (by match a with | ⟨0, _⟩ => rfl)

theorem v45_apply (x3 : FVec Ideal S128 .f32) (n : Fin 100000) (f : Fin 128) :
    val_main_v45 (F := Ideal) x3 (ix2 n f) = x3 (ix1 f) := by
  rw [val_main_v45_apply, val_main_v44_apply, idx45]

theorem relu_zero_apply (i : S100000x128.Idx) : val_main_call1_v0 (F := Ideal) i = 0 := by
  rw [val_main_call1_v0_apply, val_main_call1_cst_apply, Ideal.ofBits_def, Ideal.ofBits_zero_f32]

/-- The hidden features: the first propagation of `x·W₁`, plus the bias, rectified. -/
def hidden (x0 : FVec Ideal S100000x256 .f32) (x1 : IVec S2x1600000 32) (x2 : FVec Ideal S256x128 .f32)
    (x3 : FVec Ideal S128 .f32) (r : Fin 100000) (f : Fin 128) : EReal :=
  max (GraphConv.propEdge (inEdges x1) (src x1) (tgt x1) (wt x1)
        (GraphConv.lin (fun r k => x0 (ix2 r k)) (fun k f => x2 (ix2 k f))) r f + x3 (ix1 f)) 0

theorem v47_apply (x0 : FVec Ideal S100000x256 .f32) (x1 : IVec S2x1600000 32) (x2 : FVec Ideal S256x128 .f32)
    (x3 : FVec Ideal S128 .f32) (n : Fin 100000) (f : Fin 128) :
    val_main_v47 (F := Ideal) x0 x1 x2 x3 (ix2 n f) = hidden x0 x1 x2 x3 n f := by
  rw [val_main_v47_apply, Ideal.maximumf_def, val_main_v46_apply, Ideal.addf_def, v43_apply, v45_apply, relu_zero_apply]
  rfl

/-! ## The second layer -/

theorem lidx48 (n : Fin 100000) (g : Fin 64) (k : Fin 128) : lidx_main_v48 (ix2 n g) k = ix2 n k :=
  funext fun a => Fin.ext (by match a with | ⟨0, _⟩ => rfl | ⟨1, _⟩ => rfl)

theorem ridx48 (n : Fin 100000) (g : Fin 64) (k : Fin 128) : ridx_main_v48 (ix2 n g) k = ix2 k g :=
  funext fun a => Fin.ext (by match a with | ⟨0, _⟩ => rfl | ⟨1, _⟩ => rfl)

theorem v48_apply (x0 : FVec Ideal S100000x256 .f32) (x1 : IVec S2x1600000 32) (x2 : FVec Ideal S256x128 .f32)
    (x3 : FVec Ideal S128 .f32) (x4 : FVec Ideal S128x64 .f32) (n : Fin 100000) (g : Fin 64) :
    val_main_v48 (F := Ideal) x0 x1 x2 x3 x4 (ix2 n g)
      = GraphConv.lin (hidden x0 x1 x2 x3) (fun f g' => x4 (ix2 f g')) n g := by
  rw [val_main_v48_apply]
  unfold GraphConv.lin
  exact Finset.sum_congr rfl fun k _ => by rw [lidx48, ridx48, v47_apply]

theorem v55_apply (x0 : FVec Ideal S100000x256 .f32) (x1 : IVec S2x1600000 32) (x2 : FVec Ideal S256x128 .f32)
    (x3 : FVec Ideal S128 .f32) (x4 : FVec Ideal S128x64 .f32) (e : Fin 1700000) (g : Fin 64) :
    val_main_v55 (F := Ideal) x0 x1 x2 x3 x4 (ix2 e g)
      = val_main_v48 (F := Ideal) x0 x1 x2 x3 x4 (ix2 (src x1 e) g) := by
  unfold val_main_v55
  rw [gatherRows64_rec, v54_eq]
  exact gatherRows_apply _ _ e g (by decide) _

theorem idx57 (e : Fin 1700000) (g : Fin 64) : idx_main_v56 (idx_main_v57 (ix2 e g)) = ix1 e :=
  funext fun a => Fin.ext (by match a with | ⟨0, _⟩ => rfl)

theorem v57_apply (x1 : IVec S2x1600000 32) (e : Fin 1700000) (g : Fin 64) :
    val_main_v57 (F := Ideal) x1 (ix2 e g) = val_main_v29 (F := Ideal) x1 (ix1 e) := by
  rw [val_main_v57_apply, val_main_v56_apply, idx57]

theorem v58_apply (x0 : FVec Ideal S100000x256 .f32) (x1 : IVec S2x1600000 32) (x2 : FVec Ideal S256x128 .f32)
    (x3 : FVec Ideal S128 .f32) (x4 : FVec Ideal S128x64 .f32) (e : Fin 1700000) (g : Fin 64) :
    val_main_v58 (F := Ideal) x0 x1 x2 x3 x4 (ix2 e g)
      = GraphConv.lin (hidden x0 x1 x2 x3) (fun f g' => x4 (ix2 f g')) (src x1 e) g
          * (wt x1 (src x1 e) * wt x1 (tgt x1 e)) := by
  rw [val_main_v58_apply, Ideal.mulf_def, v55_apply, v48_apply, v57_apply, v29_apply]

theorem v59_apply (i : S100000x64.Idx) : val_main_v59 (F := Ideal) i = 0 := by
  rw [val_main_v59_apply, val_main_cst_11_apply, Ideal.ofBits_def, Ideal.ofBits_zero_f32]

theorem v61_apply (x0 : FVec Ideal S100000x256 .f32) (x1 : IVec S2x1600000 32) (x2 : FVec Ideal S256x128 .f32)
    (x3 : FVec Ideal S128 .f32) (x4 : FVec Ideal S128x64 .f32) (n : Fin 100000) (g : Fin 64) :
    val_main_v61 (F := Ideal) x0 x1 x2 x3 x4 (ix2 n g)
      = GraphConv.propEdge (inEdges x1) (src x1) (tgt x1) (wt x1)
          (GraphConv.lin (hidden x0 x1 x2 x3) (fun f g' => x4 (ix2 f g'))) n g := by
  unfold val_main_v61
  rw [scatterRows64_rec, v60_eq, hostScatterAddRows_apply, v59_apply, zero_add]
  unfold GraphConv.propEdge inEdges
  exact Finset.sum_congr rfl fun e _ => v58_apply x0 x1 x2 x3 x4 e g

theorem idx63 (n : Fin 100000) (g : Fin 64) : idx_main_v62 (idx_main_v63 (ix2 n g)) = ix1 g :=
  funext fun a => Fin.ext (by match a with | ⟨0, _⟩ => rfl)

theorem v63_apply (x5 : FVec Ideal S64 .f32) (n : Fin 100000) (g : Fin 64) :
    val_main_v63 (F := Ideal) x5 (ix2 n g) = x5 (ix1 g) := by
  rw [val_main_v63_apply, val_main_v62_apply, idx63]

/-! ## The result -/

/-- Entry `(v, g)` of the reference's result is the two-layer network with the normalisation applied per edge, over
    the graph the reference reads: the edges landing on `v` are those whose target word is `v`, an edge's source and
    target rows are its wrapped words clamped to rows, and a node's weight is entry `v` of the weight array. -/
theorem result_apply (x0 : FVec Ideal S100000x256 .f32) (x1 : IVec S2x1600000 32) (x2 : FVec Ideal S256x128 .f32)
    (x3 : FVec Ideal S128 .f32) (x4 : FVec Ideal S128x64 .f32) (x5 : FVec Ideal S64 .f32) (v : Fin 100000) (g : Fin 64) :
    val_main_v64 (F := Ideal) x0 x1 x2 x3 x4 x5 (ix2 v g)
      = GraphConv.netEdge
          (fun n : Fin 100000 => Finset.univ.filter fun e : Fin 1700000 =>
            rowNo (val_main_v9 (F := Ideal) x1) e = (n.val : Int))
          (fun e => clampRow 100000 (by decide) (val_main_v20 (F := Ideal) x1) e)
          (fun e => clampRow 100000 (by decide) (val_main_v27 (F := Ideal) x1) e)
          (fun n => val_main_v14 (F := Ideal) x1 (ix1 n))
          (fun r k => x0 (ix2 r k)) (fun k f => x2 (ix2 k f)) (fun f => x3 (ix1 f))
          (fun f g' => x4 (ix2 f g')) (fun g' => x5 (ix1 g')) v g := by
  rw [val_main_v64_apply, Ideal.addf_def, v61_apply, v63_apply]
  rfl

end Cert.ReferenceIdeal.RefValue

end
-- ==== Proof.KernelRun.lean ====
/-
  The kernel program's run, with its result array named by the last boundary's contents.
-/
import proofs.«108439_j47674136985664_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The kernel program's run with its result named: from any memory with zero counters every weakly fair execution of @main
    terminates, nothing faulting; the result array ends at what the last region's write-backs leave (the last boundary's
    contents at that buffer), and the six argument arrays end as launched. The eight segments — host stretches and the three
    regions — are run in order from the launch memory, and the final state is read against the last boundary's contents. -/
theorem run_result : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.KernelHost.lean ====
/-
  The kernel program between its regions: what each region finds in the arrays it reads.

  The program computes, before its first region, the edge list's source and target words (the given edges followed by one
  self loop per node), the node degrees (a scatter-add of ones at the targets) and the node weight
  `d = select (deg > 0) (rsqrt deg) 0`, kept as a column `[100000, 1]`. No later operation and no region writes any of these,
  nor an argument array, so every later boundary finds them as the first region did. Between two regions the program
  gathers the rows of the region's output at the (wrapped) source words and scatter-adds them at the target words: the next
  region's first array.
-/
import proofs.«108439_j47674136985664_2_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat)

variable {F : FTy → Type} [FloatOps F]
variable (m : (ℓ : Loc nD τ sig) → Buf (Elt F) ℓ) (ρ : Dev nD → PrngReg)

/-! ## The words, the weight and the region outputs, by name -/

/-- The source words of the 1700000 edges, as the first region finds them. -/
def srcWords (c : Dev nD) : IVec S1700000 32 := W3 m ρ c (Proc.devRef .tc main_v5)
/-- The target words of the 1700000 edges. -/
def dstWords (c : Dev nD) : IVec S1700000 32 := W3 m ρ c (Proc.devRef .tc main_v6)
/-- The node weight, as a vector. -/
def weight (c : Dev nD) : FVec F S100000 .f32 := W2 m ρ c (Proc.devRef .tc main_v14)
/-- The node weight, as the column every region reads. -/
def weightCol (c : Dev nD) : FVec F S100000x1 .f32 := W3 m ρ c (Proc.devRef .tc main_v15)

/-- The target words as the column a scatter-add takes. -/
def dstCol (c : Dev nD) : IVec S1700000x1 32 :=
  broadcastInDim S1700000x1 ![0] bcast_S1700000_S1700000x1_0 (dstWords m ρ c)
/-- The source words, negative ones wrapped by adding the number of nodes, as the column a gather takes. -/
def srcCol (c : Dev nD) : IVec S1700000x1 32 :=
  broadcastInDim S1700000x1 ![0] bcast_S1700000_S1700000x1_0
    (select (cmpi .slt (srcWords m ρ c) (broadcastInDim S1700000 ![] bcast_S_S1700000 (constantI S_ 32 0#32)))
      (addi (srcWords m ρ c) (broadcastInDim S1700000 ![] bcast_S_S1700000 (constantI S_ 32 100000#32)))
      (srcWords m ρ c))

/-- The first region's output array, after the region. -/
def out0 (c : Dev nD) : FVec F S100000x128 .f32 := W4 m ρ c (Proc.devRef .tc main_v16)
/-- The second region's output array, after the region. -/
def out1 (c : Dev nD) : FVec F S100000x64 .f32 := W6 m ρ c (Proc.devRef .tc main_v28)

/-! ## Nothing after the first region's entry rewrites the words or the weight -/

theorem W4_v5 (c : Dev nD) : W4 m ρ c (Proc.devRef .tc main_v5) = srcWords m ρ c := W4_of_ne m ρ c main_v5 (by decide)
theorem W4_v6 (c : Dev nD) : W4 m ρ c (Proc.devRef .tc main_v6) = dstWords m ρ c := W4_of_ne m ρ c main_v6 (by decide)
theorem W4_v15 (c : Dev nD) : W4 m ρ c (Proc.devRef .tc main_v15) = weightCol m ρ c :=
  (W4_arr m ρ c 2).trans (((dat0 (V3 m ρ) c).arrAt_in 2 rfl _).trans (A_eq0 (V3 m ρ) c 2))

theorem W5_v5 (c : Dev nD) : W5 m ρ c (Proc.devRef .tc main_v5) = srcWords m ρ c := by
  show StableHlo.after hostOps1 (W4 m ρ c) (Proc.devRef .tc main_v5) = _
  unfold hostOps1
  after_results
  exact W4_v5 m ρ c
theorem W5_v6 (c : Dev nD) : W5 m ρ c (Proc.devRef .tc main_v6) = dstWords m ρ c := by
  show StableHlo.after hostOps1 (W4 m ρ c) (Proc.devRef .tc main_v6) = _
  unfold hostOps1
  after_results
  exact W4_v6 m ρ c
theorem W5_v15 (c : Dev nD) : W5 m ρ c (Proc.devRef .tc main_v15) = weightCol m ρ c := by
  show StableHlo.after hostOps1 (W4 m ρ c) (Proc.devRef .tc main_v15) = _
  unfold hostOps1
  after_results
  exact W4_v15 m ρ c

theorem W6_v5 (c : Dev nD) : W6 m ρ c (Proc.devRef .tc main_v5) = srcWords m ρ c :=
  (W6_of_ne m ρ c main_v5 (by decide)).trans (W5_v5 m ρ c)
theorem W6_v6 (c : Dev nD) : W6 m ρ c (Proc.devRef .tc main_v6) = dstWords m ρ c :=
  (W6_of_ne m ρ c main_v6 (by decide)).trans (W5_v6 m ρ c)
theorem W6_v15 (c : Dev nD) : W6 m ρ c (Proc.devRef .tc main_v15) = weightCol m ρ c :=
  ((W6_arr m ρ c 1).trans (((dat1 (V5 m ρ) c).arrAt_in 1 rfl _).trans (A_eq1 (V5 m ρ) c 1))).trans (W5_v15 m ρ c)

theorem W7_v15 (c : Dev nD) : W7 m ρ c (Proc.devRef .tc main_v15) = weightCol m ρ c := by
  show StableHlo.after hostOps2 (W6 m ρ c) (Proc.devRef .tc main_v15) = _
  unfold hostOps2
  after_results
  exact W6_v15 m ρ c

/-- The weight column is the weight vector recast. -/
theorem weightCol_eq (c : Dev nD) :
    weightCol m ρ c = shapeCast S100000x1 (weight m ρ c) shapeCasts_S100000_S100000x1 := by
  unfold weightCol weight
  show StableHlo.after hostOps0_2 (W2 m ρ c) (Proc.devRef .tc main_v15) = shapeCast S100000x1 (W2 m ρ c (Proc.devRef .tc main_v14)) _
  generalize W2 m ρ c = V
  unfold hostOps0_2
  after_results
  rfl

/-! ## The arguments -/

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  unfold hostOps0_2 hostOps0_1 hostOps0
  after_results
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  unfold hostOps0_2 hostOps0_1 hostOps0
  after_results
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  unfold hostOps0_2 hostOps0_1 hostOps0
  after_results
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  unfold hostOps0_2 hostOps0_1 hostOps0
  after_results
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  unfold hostOps0_2 hostOps0_1 hostOps0
  after_results

theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W5_arg4 (c : Dev nD) : W5 m ρ c (Proc.devRef .tc main_arg4) = m ((c : Thread nD τ).loc main_arg4) := by
  show StableHlo.after hostOps1 (W4 m ρ c) (Proc.devRef .tc main_arg4) = _
  unfold hostOps1
  after_results
  exact W4_arg4 m ρ c
theorem W5_arg5 (c : Dev nD) : W5 m ρ c (Proc.devRef .tc main_arg5) = m ((c : Thread nD τ).loc main_arg5) := by
  show StableHlo.after hostOps1 (W4 m ρ c) (Proc.devRef .tc main_arg5) = _
  unfold hostOps1
  after_results
  exact W4_arg5 m ρ c
theorem W6_arg5 (c : Dev nD) : W6 m ρ c (Proc.devRef .tc main_arg5) = m ((c : Thread nD τ).loc main_arg5) :=
  (W6_of_ne m ρ c main_arg5 (by decide)).trans (W5_arg5 m ρ c)

/-! ## What each region finds -/

/-- The second region's first array: the first region's output gathered at the source words and scatter-added at the
    target words, into zeros. -/
theorem V5_v26 (c : Dev nD) :
    V5 m ρ c main_v26 = Host.scatterAdd scatter_S100000x128_S1700000x1_S1700000x128_1_0_0_1
      (broadcastInDim S100000x128 ![] bcast_S_S100000x128 (constant S_ .f32 0x00000000#32)) (dstCol m ρ c)
      (Host.gather gather_S100000x128_S1700000x1_S1700000x128_1_0_n_n_0_1_1128 (out0 m ρ c) (srcCol m ρ c)) := by
  show StableHlo.after hostOps1 (W4 m ρ c) (Proc.devRef .tc main_v26) = _
  unfold hostOps1
  after_results
  rw [W4_v5, W4_v6]
  rfl
/-- Its bias row is the first bias recast. -/
theorem V5_v27 (c : Dev nD) :
    V5 m ρ c main_v27 = shapeCast S1x128 (m ((c : Thread nD τ).loc main_arg3)) shapeCasts_S128_S1x128 := by
  show StableHlo.after hostOps1 (W4 m ρ c) (Proc.devRef .tc main_v27) = _
  unfold hostOps1
  after_results
  rw [W4_arg3]
  rfl

/-- The third region's first array: the second region's output gathered and scatter-added the same way. -/
theorem V7_v38 (c : Dev nD) :
    V7 m ρ c main_v38 = Host.scatterAdd scatter_S100000x64_S1700000x1_S1700000x64_1_0_0_1
      (broadcastInDim S100000x64 ![] bcast_S_S100000x64 (constant S_ .f32 0x00000000#32)) (dstCol m ρ c)
      (Host.gather gather_S100000x64_S1700000x1_S1700000x64_1_0_n_n_0_1_164 (out1 m ρ c) (srcCol m ρ c)) := by
  show StableHlo.after hostOps2 (W6 m ρ c) (Proc.devRef .tc main_v38) = _
  unfold hostOps2
  after_results
  rw [W6_v5, W6_v6]
  rfl
/-- Its bias row is the second bias recast. -/
theorem V7_v39 (c : Dev nD) :
    V7 m ρ c main_v39 = shapeCast S1x64 (m ((c : Thread nD τ).loc main_arg5)) shapeCasts_S64_S1x64 := by
  show StableHlo.after hostOps2 (W6 m ρ c) (Proc.devRef .tc main_v39) = _
  unfold hostOps2
  after_results
  rw [W6_arg5]
  rfl

end Cert.KernelIdeal.Host

end
-- ==== Proof.LibSegmentGather.lean ====
/-
  Message passing on the extended reals, read at an entry: the rows of an array gathered at one column of row numbers and
  scatter-added into the zero array at another.

  With a source column `scol` and a target column `tcol` of `R` row numbers, `zeros.at[tcol].add(X[scol])` holds at entry
  `(n, c)` the sum, over the rows `e` whose signed target number is `n`, of `X` at the clamped source row of `e` and
  column `c`: the scatter-add keeps exactly the updates whose target is a row of the array, and a gather reads the operand
  at the clamped row.
-/
import proofs.«108439_j47674136985664_2_alg».proof.Proof.LibRowScatter

noncomputable section

open scoped BigOperators

namespace Idealize.ShloMosaic.RowScatter

open Idealize.ShloMosaic Idealize.ShloMosaic.ValueIdx

/-- Gathered rows scatter-added into an array that is zero everywhere, at an entry. -/
theorem scatterAdd_gather_zero_apply {N R C w : ℕ} (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (z X : FVec Ideal ⟨2, ![N, C]⟩ .f32) (hz : ∀ i, z i = (0 : EReal)) (tcol scol : IVec ⟨2, ![R, 1]⟩ w) (n : Fin N) (c : Fin C) :
    Host.scatterAdd (scatterRows N R C wfs) z tcol (Host.gather (gatherRows N R C wfg) X scol) (ix2 n c)
      = ∑ e ∈ Finset.univ.filter (fun e : Fin R => rowNo tcol e = (n.val : Int)), X (ix2 (clampRow N hN scol e) c) := by
  rw [hostScatterAddRows_apply, hz, zero_add]
  exact Finset.sum_congr rfl fun e _ => gatherRows_apply wfg scol e c hN X

end Idealize.ShloMosaic.RowScatter

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.KernelRegions.lean ====
/-
  The output arrays of the first and third regions of the two-layer graph convolution, read entry by entry after the
  region, for any contents of the arrays at the region's entry.

  Each region walks the 100000 rows in 50 blocks of 2000 rows. A block's body is a function of the blocks of the
  arrays it reads; read at one entry of the block it is a function of the entries of those arrays in the same row
  (and, for the product of matrices, of the whole weight array). The blocks tile the output array, row `r` lying in
  block `r / 2000`, so the array ends holding that function at every entry:

  * first region: `(∑ k, x[r,k] · w[k,f]) · d[r]`, the row of features against the column of weights, scaled by
    the row's entry of the column `d`;
  * third region: `a[r,g] · d[r] + b[g]`, the aggregate scaled by the row's entry of the column, plus the bias row.
-/
import proofs.«108439_j47674136985664_2_alg».proof.Proof.Gen.KernelIdeal.Frame
import proofs.«108439_j47674136985664_2_alg».proof.Proof.LibPlainMatmul
import proofs.«108439_j47674136985664_2_alg».proof.Proof.LibColumnLayout
import Idealize.ShloMosaic.Lib.Pipeline.Value
import Idealize.ShloMosaic.Lib.ValueIdx
import Idealize.ShloMosaic.Lib.ValueLayout

set_option maxRecDepth 16384

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- An `f32` array at the ideal values, read as a function to the extended reals. -/
abbrev real {s : Shape} (a : Vec Ideal s .f32) : s.Idx → EReal := a

/-! ## The third region: the aggregate scaled by the column, plus the bias row -/

/-- The third region's body at one entry of its block. -/
theorem pay2_apply (x0 : Vec Ideal S2000x64 .f32) (x1 : Vec Ideal S2000x1 .f32) (x2 : Vec Ideal S1x64 .f32)
    (p : Fin 2000) (g : Fin 64) :
    k2_pay1 x0 x1 x2 (ix2 p g) = x0 (ix2 p g) * x1 (ix2 p (0 : Fin 1)) + x2 (ix2 (0 : Fin 1) g) := by
  unfold k2_pay1
  simp only [shapeCast_self]
  rw [addf_apply, mulf_apply, ColumnLayout.broadcastTo_a1_ab_apply, broadcastTo_1b_ab_apply]

/-- What the third region's output array ends holding, entry by entry, from the arrays it reads. -/
abbrev G2 (a0 : Vec Ideal S100000x64 .f32) (a1 : Vec Ideal S100000x1 .f32) (a2 : Vec Ideal S1x64 .f32) :
    Vec Ideal S100000x64 .f32 :=
  fun i => a0 i * a1 (ix2 (i 0) (0 : Fin 1)) + a2 (ix2 (0 : Fin 1) (i 1))

/-- The block index of each window at a grid point: the row-blocked windows sit at the point's number, the whole-array
    window at zero. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point `t` writes back is block `t` of `G2` of the arrays as the region finds them. -/
theorem flushed2_eq (c : Dev nD) (t : Fin cfg2.N) :
    (dat2 V c).flushed 3 t
      = ((cfg2.win 3).blk t).view.read (Elt Ideal) (G2 (V c main_v38) (V c main_v15) (V c main_v39)) := by
  show (cfg2.win 3).cut (grid2.coords t) ((dat2 V c).after 3 t) = _
  rw [after2_3]
  unfold out2_3
  rw [View.canon_unit_zero zero_offsets]
  simp only [View.ld_unit_zero (S := S2000x64) zero_offsets, View.ld_unit_zero (S := S2000x1) zero_offsets,
    View.ld_unit_zero (S := S1x64) zero_offsets]
  obtain ⟨e00, e01, e10, e11, e20, e21, e30, e31⟩ := idx_facts2 t
  funext j
  have hj0 : (j 0).val < 2000 := (j 0).isLt
  have hj1 : (j 1).val < 64 := (j 1).isLt
  have hj : (cfg2.win 3).xinj (grid2.coords t) j = ix2 (⟨(j 0).val, hj0⟩ : Fin 2000) (⟨(j 1).val, hj1⟩ : Fin 64) :=
    funext fun a => match a with | ⟨0, _⟩ => rfl | ⟨1, _⟩ => rfl
  refine (congrArg (k2_pay1 (iblk2 V c 0 t) (iblk2 V c 1 t) (iblk2 V c 2 t)) hj).trans ?_
  refine (pay2_apply _ _ _ _ _).trans ?_
  have h0 : iblk2 V c 0 t (ix2 (⟨(j 0).val, hj0⟩ : Fin 2000) (⟨(j 1).val, hj1⟩ : Fin 64))
      = V c main_v38 (((cfg2.win 3).blk t).view.emb j) := by
    unfold iblk2; rw [View.read_apply]
    show V c main_v38 _ = V c main_v38 _
    congr 1; funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 64 + 1 * (j 1).val = win2_3.index t (1 : Fin 2) * 64 + 1 * (j 1).val; omega
  have h1 : iblk2 V c 1 t (ix2 (⟨(j 0).val, hj0⟩ : Fin 2000) (0 : Fin 1))
      = V c main_v15 (ix2 (n0 := 100000) (n1 := 1) ((((cfg2.win 3).blk t).view.emb j) 0) (0 : Fin 1)) := by
    unfold iblk2; rw [View.read_apply]
    show V c main_v15 _ = V c main_v15 _
    congr 1; funext a; apply Fin.ext
    match a with
    | ⟨0, _⟩ => show win2_1.index t (0 : Fin 2) * 2000 + 1 * (j 0).val = win2_3.index t (0 : Fin 2) * 2000 + 1 * (j 0).val; omega
    | ⟨1, _⟩ => show win2_1.index t (1 : Fin 2) * 1 + 1 * 0 = 0; omega
  have h2 : iblk2 V c 2 t (ix2 (0 : Fin 1) (⟨(j 1).val, hj1⟩ : Fin 64))
      = V c main_v39 (ix2 (n0 := 1) (n1 := 64) (0 : Fin 1) ((((cfg2.win 3).blk t).view.emb j) 1)) := by
    unfold iblk2; rw [View.read_apply]
    show V c main_v39 _ = V c main_v39 _
    congr 1; funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega
  rw [h0, h1, h2]
  rfl

/-- An index of the output array lies in point `t`'s block iff each coordinate lies in the block's range on its axis. -/
theorem mem_blk2 (t : Fin cfg2.N) (i : S100000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v40).slice (win2_3.rect t)).set ↔ _
  rw [View.set_slice_whole, Rect.mem_set_unit]
  exact Iff.rfl

/-- Row `r` of the output array lies in the block of point `r / 2000`. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  obtain ⟨t, ht⟩ : ∃ t : Fin cfg2.N, t.val = (i 0).val / 2000 := ⟨⟨(i 0).val / 2000, by rw [hN]; omega⟩, rfl⟩
  obtain ⟨-, -, -, -, -, -, e30, e31⟩ := idx_facts2 t
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

/-- The third region's output array after the region. -/
theorem final2 (c : Dev nD) : (dat2 V c).arrAt 3 cfg2.N = G2 (V c main_v38) (V c main_v15) (V c main_v39) :=
  (dat2 V c).arrAt_eq_of_cover 3 _ (fun t _ => flushed2_eq V c t) cover2

/-- **The third region's output at an entry**: the aggregate times the row's column entry, plus the bias. -/
theorem region2_out (c : Dev nD) (r : Fin 100000) (g : Fin 64) :
    (dat2 (F := Ideal) V c).arrAt 3 cfg2.N (ix2 r g)
      = real (V c main_v38) (ix2 r g) * real (V c main_v15) (ix2 r (0 : Fin 1)) + real (V c main_v39) (ix2 (0 : Fin 1) g) :=
  congrFun (final2 V c) (ix2 r g)

/-! ## The first region: the features times the weights, each row scaled by its column entry -/

/-- The first region's body at one entry of its block. -/
theorem pay0_apply (x0 : Vec Ideal S2000x256 .f32) (x1 : Vec Ideal S256x128 .f32) (x2 : Vec Ideal S2000x1 .f32)
    (p : Fin 2000) (f : Fin 128) :
    k0_pay1 x0 x1 x2 (ix2 p f) = (∑ k : Fin 256, x0 (ix2 p k) * x1 (ix2 k f)) * x2 (ix2 p (0 : Fin 1)) := by
  unfold k0_pay1
  simp only [shapeCast_self]
  rw [mulf_apply, ColumnLayout.broadcastTo_a1_ab_apply]
  refine congrArg (· * x2 (ix2 p (0 : Fin 1))) ?_
  exact PlainMatmul.matmul_zero_apply (m := 2000) (k := 256) (n := 128) none (truncf .bf16 x0 bitsLt_bf16_f32)
    (truncf .bf16 x1 bitsLt_bf16_f32) p f

/-- What the first region's output array ends holding, entry by entry, from the arrays it reads. -/
abbrev G0 (a0 : Vec Ideal S100000x256 .f32) (a1 : Vec Ideal S256x128 .f32) (a2 : Vec Ideal S100000x1 .f32) :
    Vec Ideal S100000x128 .f32 :=
  fun i => (∑ k : Fin 256, a0 (ix2 (i 0) k) * a1 (ix2 k (i 1))) * a2 (ix2 (i 0) (0 : Fin 1))

/-- The block index of each window at a grid point: the row-blocked windows sit at the point's number, the whole-array
    window at zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of `G0` of the arrays as the region finds them. -/
theorem flushed0_eq (c : Dev nD) (t : Fin cfg0.N) :
    (dat0 V c).flushed 3 t
      = ((cfg0.win 3).blk t).view.read (Elt Ideal) (G0 (V c main_arg0) (V c main_arg2) (V c main_v15)) := by
  show (cfg0.win 3).cut (grid0.coords t) ((dat0 V c).after 3 t) = _
  rw [after0_3]
  unfold out0_3
  rw [View.canon_unit_zero zero_offsets]
  simp only [View.ld_unit_zero (S := S2000x256) zero_offsets, View.ld_unit_zero (S := S256x128) zero_offsets,
    View.ld_unit_zero (S := S2000x1) zero_offsets]
  obtain ⟨e00, e01, e10, e11, e20, e21, e30, e31⟩ := idx_facts0 t
  funext j
  have hj0 : (j 0).val < 2000 := (j 0).isLt
  have hj1 : (j 1).val < 128 := (j 1).isLt
  have hj : (cfg0.win 3).xinj (grid0.coords t) j = ix2 (⟨(j 0).val, hj0⟩ : Fin 2000) (⟨(j 1).val, hj1⟩ : Fin 128) :=
    funext fun a => match a with | ⟨0, _⟩ => rfl | ⟨1, _⟩ => rfl
  refine (congrArg (k0_pay1 (iblk0 V c 0 t) (iblk0 V c 1 t) (iblk0 V c 2 t)) hj).trans ?_
  refine (pay0_apply _ _ _ _ _).trans ?_
  have h0 : ∀ k : Fin 256, iblk0 V c 0 t (ix2 (⟨(j 0).val, hj0⟩ : Fin 2000) k)
      = V c main_arg0 (ix2 (n0 := 100000) (n1 := 256) ((((cfg0.win 3).blk t).view.emb j) 0) k) := by
    intro k
    unfold iblk0; rw [View.read_apply]
    show V c main_arg0 _ = V c main_arg0 _
    congr 1; funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 256 + 1 * k.val = k.val; omega
  have h1 : ∀ k : Fin 256, iblk0 V c 1 t (ix2 k (⟨(j 1).val, hj1⟩ : Fin 128))
      = V c main_arg2 (ix2 (n0 := 256) (n1 := 128) k ((((cfg0.win 3).blk t).view.emb j) 1)) := by
    intro k
    unfold iblk0; rw [View.read_apply]
    show V c main_arg2 _ = V c main_arg2 _
    congr 1; funext a; apply Fin.ext
    match a with
    | ⟨0, _⟩ => show win0_1.index t (0 : Fin 2) * 256 + 1 * k.val = k.val; omega
    | ⟨1, _⟩ => show win0_1.index t (1 : Fin 2) * 128 + 1 * (j 1).val = win0_3.index t (1 : Fin 2) * 128 + 1 * (j 1).val; omega
  have h2 : iblk0 V c 2 t (ix2 (⟨(j 0).val, hj0⟩ : Fin 2000) (0 : Fin 1))
      = V c main_v15 (ix2 (n0 := 100000) (n1 := 1) ((((cfg0.win 3).blk t).view.emb j) 0) (0 : Fin 1)) := by
    unfold iblk0; rw [View.read_apply]
    show V c main_v15 _ = V c main_v15 _
    congr 1; funext a; apply Fin.ext
    match a with
    | ⟨0, _⟩ => show win0_2.index t (0 : Fin 2) * 2000 + 1 * (j 0).val = win0_3.index t (0 : Fin 2) * 2000 + 1 * (j 0).val; omega
    | ⟨1, _⟩ => show win0_2.index t (1 : Fin 2) * 1 + 1 * 0 = 0; omega
  rw [h2, Finset.sum_congr rfl fun k _ => congrArg₂ (fun a b : EReal => a * b) (h0 k) (h1 k)]
  rfl

/-- An index of the output array lies in point `t`'s block iff each coordinate lies in the block's range on its axis. -/
theorem mem_blk0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v16).slice (win0_3.rect t)).set ↔ _
  rw [View.set_slice_whole, Rect.mem_set_unit]
  exact Iff.rfl

/-- Row `r` of the output array lies in the block of point `r / 2000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The first region's output array after the region. -/
theorem final0 (c : Dev nD) : (dat0 V c).arrAt 3 cfg0.N = G0 (V c main_arg0) (V c main_arg2) (V c main_v15) :=
  (dat0 V c).arrAt_eq_of_cover 3 _ (fun t _ => flushed0_eq V c t) cover0

/-- **The first region's output at an entry**: the row of features against the column of weights, times the row's
    column entry. -/
theorem region0_out (c : Dev nD) (r : Fin 100000) (f : Fin 128) :
    (dat0 (F := Ideal) V c).arrAt 3 cfg0.N (ix2 r f)
      = (∑ k : Fin 256, real (V c main_arg0) (ix2 r k) * real (V c main_arg2) (ix2 k f))
          * real (V c main_v15) (ix2 r (0 : Fin 1)) :=
  congrFun (final0 V c) (ix2 r f)

end Cert.KernelIdeal.RegionValue

end
-- ==== Proof.KernelRegion1.lean ====
/-
  The output array of the second region of the two-layer graph convolution, read entry by entry after the region, for
  any contents of the arrays at the region's entry.

  The region walks the 100000 rows in 50 blocks of 2000 rows. A block's body scales each row of the aggregate by the
  row's entry of the column `d`, adds the bias row and rectifies; multiplies the result by the whole weight array; and
  scales each row of the product by the row's entry of `d` again. Read at one entry of the block it is a function of
  the entries of the aggregate and of the column in the same row, of the bias row and of one column of the weights. The
  blocks tile the output array, row `r` lying in block `r / 2000`, so the array ends holding at every entry `(r, g)`

    `(∑ f, max (a[r,f] · d[r] + b[f]) 0 · w[f,g]) · d[r]`.
-/
import proofs.«108439_j47674136985664_2_alg».proof.Proof.Gen.KernelIdeal.Frame
import proofs.«108439_j47674136985664_2_alg».proof.Proof.LibPlainMatmul
import proofs.«108439_j47674136985664_2_alg».proof.Proof.LibColumnLayout
import Idealize.ShloMosaic.Lib.Pipeline.Value
import Idealize.ShloMosaic.Lib.ValueIdx
import Idealize.ShloMosaic.Lib.ValueLayout

set_option maxRecDepth 16384

noncomputable section

open scoped BigOperators

namespace Cert.KernelIdeal.RegionValue1

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- An `f32` array at the ideal values, read as a function to the extended reals. -/
abbrev real {s : Shape} (a : Vec Ideal s .f32) : s.Idx → EReal := a

/-! ## The body at one entry of its block -/

/-- The body's value at entry `(p, g)` of its block: row `p` of the aggregate scaled by the row's column entry, plus the
    bias row, rectified, against column `g` of the weights, the sum scaled by the row's column entry again. -/
theorem pay1_apply (x0 : Vec Ideal S2000x128 .f32) (x1 : Vec Ideal S2000x1 .f32) (x2 : Vec Ideal S1x128 .f32)
    (x3 : Vec Ideal S128x64 .f32) (x4 : Vec Ideal S2000x1 .f32) (p : Fin 2000) (g : Fin 64) :
    k1_pay1 x0 x1 x2 x3 x4 (ix2 p g)
      = (∑ f : Fin 128, max (x0 (ix2 p f) * x1 (ix2 p (0 : Fin 1)) + x2 (ix2 (0 : Fin 1) f)) 0 * x3 (ix2 f g))
          * x4 (ix2 p (0 : Fin 1)) := by
  unfold k1_pay1
  simp only [shapeCast_self]
  rw [mulf_apply, ColumnLayout.broadcastTo_a1_ab_apply]
  refine congrArg (· * x4 (ix2 p (0 : Fin 1))) ?_
  refine (PlainMatmul.matmul_zero_apply (m := 2000) (k := 128) (n := 64) none _ _ p g).trans ?_
  refine Finset.sum_congr rfl fun f _ => ?_
  rw [truncf_apply, truncf_apply, maximumf_apply, addf_apply, mulf_apply, broadcast_apply,
    ColumnLayout.broadcastTo_a1_ab_apply, broadcastTo_1b_ab_apply, Ideal.ofBits_def, Ideal.ofBits_zero_f32]

/-! ## From blocks to the array -/

/-- What the region's output array ends holding, entry by entry, from the arrays it reads. -/
abbrev G1 (a0 : Vec Ideal S100000x128 .f32) (a1 : Vec Ideal S100000x1 .f32) (a2 : Vec Ideal S1x128 .f32)
    (a3 : Vec Ideal S128x64 .f32) : Vec Ideal S100000x64 .f32 :=
  fun i => (∑ f : Fin 128, max (a0 (ix2 (i 0) f) * a1 (ix2 (i 0) (0 : Fin 1)) + a2 (ix2 (0 : Fin 1) f)) 0
              * a3 (ix2 f (i 1))) * a1 (ix2 (i 0) (0 : Fin 1))

/-- The block index of each window at a grid point: the row-blocked windows sit at the point's number, the whole-array
    windows at zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point `t` writes back is block `t` of `G1` of the arrays as the region finds them. -/
theorem flushed1_eq (c : Dev nD) (t : Fin cfg1.N) :
    (dat1 V c).flushed 4 t
      = ((cfg1.win 4).blk t).view.read (Elt Ideal)
          (G1 (V c main_v26) (V c main_v15) (V c main_v27) (V c main_arg4)) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S2000x1) zero_offsets,
    View.ld_unit_zero (S := S1x128) zero_offsets, View.ld_unit_zero (S := S128x64) zero_offsets]
  obtain ⟨e00, e01, e10, e11, e20, e21, e30, e31, e40, e41⟩ := idx_facts1 t
  funext j
  have hj0 : (j 0).val < 2000 := (j 0).isLt
  have hj1 : (j 1).val < 64 := (j 1).isLt
  have hj : (cfg1.win 4).xinj (grid1.coords t) j = ix2 (⟨(j 0).val, hj0⟩ : Fin 2000) (⟨(j 1).val, hj1⟩ : Fin 64) :=
    funext fun a => match a with | ⟨0, _⟩ => rfl | ⟨1, _⟩ => rfl
  refine (congrArg (k1_pay1 (iblk1 V c 0 t) (iblk1 V c 1 t) (iblk1 V c 2 t) (iblk1 V c 3 t) (iblk1 V c 1 t)) hj).trans ?_
  refine (pay1_apply _ _ _ _ _ _ _).trans ?_
  have h0 : ∀ f : Fin 128, iblk1 V c 0 t (ix2 (⟨(j 0).val, hj0⟩ : Fin 2000) f)
      = V c main_v26 (ix2 (n0 := 100000) (n1 := 128) ((((cfg1.win 4).blk t).view.emb j) 0) f) := by
    intro f
    unfold iblk1; rw [View.read_apply]
    show V c main_v26 _ = V c main_v26 _
    congr 1; funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * f.val = f.val; omega
  have h1 : iblk1 V c 1 t (ix2 (⟨(j 0).val, hj0⟩ : Fin 2000) (0 : Fin 1))
      = V c main_v15 (ix2 (n0 := 100000) (n1 := 1) ((((cfg1.win 4).blk t).view.emb j) 0) (0 : Fin 1)) := by
    unfold iblk1; rw [View.read_apply]
    show V c main_v15 _ = V c main_v15 _
    congr 1; funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 1 + 1 * 0 = 0; omega
  have h2 : ∀ f : Fin 128, iblk1 V c 2 t (ix2 (0 : Fin 1) f)
      = V c main_v27 (ix2 (n0 := 1) (n1 := 128) (0 : Fin 1) f) := by
    intro f
    unfold iblk1; rw [View.read_apply]
    show V c main_v27 _ = V c main_v27 _
    congr 1; funext a; apply Fin.ext
    match a with
    | ⟨0, _⟩ => show win1_2.index t (0 : Fin 2) * 1 + 1 * 0 = 0; omega
    | ⟨1, _⟩ => show win1_2.index t (1 : Fin 2) * 128 + 1 * f.val = f.val; omega
  have h3 : ∀ f : Fin 128, iblk1 V c 3 t (ix2 f (⟨(j 1).val, hj1⟩ : Fin 64))
      = V c main_arg4 (ix2 (n0 := 128) (n1 := 64) f ((((cfg1.win 4).blk t).view.emb j) 1)) := by
    intro f
    unfold iblk1; rw [View.read_apply]
    show V c main_arg4 _ = V c main_arg4 _
    congr 1; funext a; apply Fin.ext
    match a with
    | ⟨0, _⟩ => show win1_3.index t (0 : Fin 2) * 128 + 1 * f.val = f.val; omega
    | ⟨1, _⟩ => show win1_3.index t (1 : Fin 2) * 64 + 1 * (j 1).val = win1_4.index t (1 : Fin 2) * 64 + 1 * (j 1).val; omega
  rw [h1, Finset.sum_congr rfl fun f _ => congrArg₂ (fun a b : EReal => a * b)
    (congrArg (fun a : EReal => max a 0) (congrArg₂ (fun a b : EReal => a * _ + b) (h0 f) (h2 f))) (h3 f)]
  rfl

/-- An index of the output array lies in point `t`'s block iff each coordinate lies in the block's range on its axis. -/
theorem mem_blk1 (t : Fin cfg1.N) (i : S100000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v28).slice (win1_4.rect t)).set ↔ _
  rw [View.set_slice_whole, Rect.mem_set_unit]
  exact Iff.rfl

/-- Row `r` of the output array lies in the block of point `r / 2000`. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, e40, e41⟩ := idx_facts1 t
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- The region's output array after the region. -/
theorem final1 (c : Dev nD) :
    (dat1 V c).arrAt 4 cfg1.N = G1 (V c main_v26) (V c main_v15) (V c main_v27) (V c main_arg4) :=
  (dat1 V c).arrAt_eq_of_cover 4 _ (fun t _ => flushed1_eq V c t) cover1

/-- **The region's output at an entry**: the rectified hidden row against the column of weights, times the row's
    column entry. -/
theorem region1_out (c : Dev nD) (r : Fin 100000) (g : Fin 64) :
    (dat1 (F := Ideal) V c).arrAt 4 cfg1.N (ix2 r g)
      = (∑ f : Fin 128, max (real (V c main_v26) (ix2 r f) * real (V c main_v15) (ix2 r (0 : Fin 1))
              + real (V c main_v27) (ix2 (0 : Fin 1) f)) 0
            * real (V c main_arg4) (ix2 f g)) * real (V c main_v15) (ix2 r (0 : Fin 1)) :=
  congrFun (final1 V c) (ix2 r g)

end Cert.KernelIdeal.RegionValue1

end
-- ==== Proof.KernelValue.lean ====
/-
  The kernel program's result, read at an entry, is a two-layer graph convolution with the normalisation applied per node.

  Each region's output array is read at an entry from the arrays the region finds; the arrays between two regions are a row
  gather at the source column followed by a scatter-add at the target column, so entry `(n, c)` of the next region's first
  array is the sum over the edges that land on `n` of the previous output's row at the edge's source. The first region
  scales `x·W₁` by the node weight, the second finishes the first propagation (weight of the target, bias, rectifier) and
  scales the next product by the weight again, the third finishes the second propagation and adds the second bias.
-/
import proofs.«108439_j47674136985664_2_alg».proof.Proof.KernelHost
import proofs.«108439_j47674136985664_2_alg».proof.Proof.LibSegmentGather
import proofs.«108439_j47674136985664_2_alg».proof.Proof.LibGraphConv
import proofs.«108439_j47674136985664_2_alg».proof.Proof.LibColumnLayout
import Idealize.ShloMosaic.Lib.ValueLayout
import Idealize.ShloMosaic.PureOps.Ideal.Laws
import proofs.«108439_j47674136985664_2_alg».proof.Proof.KernelRegions
import proofs.«108439_j47674136985664_2_alg».proof.Proof.KernelRegion1
set_option maxRecDepth 16384

noncomputable section

open scoped BigOperators

namespace Cert.KernelIdeal.KValue

open Cert.KernelIdeal Cert.KernelIdeal.Gen Cert.KernelIdeal.Host
open Idealize.ShloMosaic Idealize.ShloMosaic.ValueIdx Idealize.ShloMosaic.TcCoe Idealize.ShloMosaic.RowScatter
open Idealize.SL.Sem

variable (m : (ℓ : Loc nD τ sig) → Buf (Elt Ideal) ℓ) (ρ : Dev nD → PrngReg)

/-! ## The graph and the parameters as the kernel program reads them -/

/-- The edges that land on node `n`: the rows of the target column whose signed number is `n`. -/
def inEdges (c : Dev nD) (n : Fin 100000) : Finset (Fin 1700000) :=
  Finset.univ.filter fun e : Fin 1700000 => rowNo (dstCol m ρ c) e = (n.val : Int)
/-- The node an edge reads its message from: its wrapped source word, clamped to a row. -/
def src (c : Dev nD) (e : Fin 1700000) : Fin 100000 := clampRow 100000 (by decide) (srcCol m ρ c) e
/-- A node's weight. -/
def wt (c : Dev nD) (n : Fin 100000) : EReal := weight m ρ c (ix1 n)

/-- The node features, the two weight matrices and the two biases, by coordinates. -/
def argX (c : Dev nD) (r : Fin 100000) (k : Fin 256) : EReal := (m ((c : Thread nD τ).loc main_arg0) : FVec Ideal S100000x256 .f32) (ix2 r k)
def argW1 (c : Dev nD) (k : Fin 256) (f : Fin 128) : EReal := (m ((c : Thread nD τ).loc main_arg2) : FVec Ideal S256x128 .f32) (ix2 k f)
def argB1 (c : Dev nD) (f : Fin 128) : EReal := (m ((c : Thread nD τ).loc main_arg3) : FVec Ideal S128 .f32) (ix1 f)
def argW2 (c : Dev nD) (f : Fin 128) (g : Fin 64) : EReal := (m ((c : Thread nD τ).loc main_arg4) : FVec Ideal S128x64 .f32) (ix2 f g)
def argB2 (c : Dev nD) (g : Fin 64) : EReal := (m ((c : Thread nD τ).loc main_arg5) : FVec Ideal S64 .f32) (ix1 g)

/-- The weight column at a row is the node's weight. -/
theorem weightCol_apply (c : Dev nD) (r : Fin 100000) : weightCol m ρ c (ix2 r (0 : Fin 1)) = wt m ρ c r := by
  rw [weightCol_eq]
  exact ColumnLayout.shapeCast_a_a1_apply _ _ r 0

/-! ## First layer -/

/-- The first region's output: `x·W₁` at `(r, f)`, scaled by the weight of node `r`. -/
theorem out0_apply (c : Dev nD) (r : Fin 100000) (f : Fin 128) :
    out0 m ρ c (ix2 r f) = GraphConv.lin (argX m c) (argW1 m c) r f * wt m ρ c r := by
  have h : W4 m ρ c (Proc.devRef .tc main_v16) = (dat0 (V3 m ρ) c).arrAt 3 cfg0.N := W4_arr m ρ c 3
  unfold out0
  rw [h, RegionValue.region0_out (V3 m ρ) c r f]
  simp only [RegionValue.real]
  rw [show V3 m ρ c main_arg0 = m ((c : Thread nD τ).loc main_arg0) from W3_arg0 m ρ c,
    show V3 m ρ c main_arg2 = m ((c : Thread nD τ).loc main_arg2) from W3_arg2 m ρ c,
    show V3 m ρ c main_v15 = weightCol m ρ c from rfl, weightCol_apply]
  rfl

/-- The second region's first array. -/
def agg1 (c : Dev nD) : FVec Ideal S100000x128 .f32 := V5 m ρ c main_v26
/-- It holds the first layer's messages summed over the edges that land on the node. -/
theorem agg1_apply (c : Dev nD) (n : Fin 100000) (f : Fin 128) :
    agg1 m ρ c (ix2 n f) = ∑ e ∈ inEdges m ρ c n, out0 m ρ c (ix2 (src m ρ c e) f) := by
  unfold agg1
  rw [V5_v26]
  exact scatterAdd_gather_zero_apply (by decide) scatter_S100000x128_S1700000x1_S1700000x128_1_0_0_1_wf
    gather_S100000x128_S1700000x1_S1700000x128_1_0_n_n_0_1_1128_wf _ _ (fun _ => Ideal.ofBits_zero_f32) _ _ n f

/-- The hidden layer: propagate `x·W₁`, add the first bias, rectify. -/
def hidden (c : Dev nD) (r : Fin 100000) (f : Fin 128) : EReal :=
  max (GraphConv.propNode (inEdges m ρ c) (src m ρ c) (wt m ρ c) (GraphConv.lin (argX m c) (argW1 m c)) r f + argB1 m c f) 0

/-- The second region's output: the hidden layer times `W₂` at `(r, g)`, scaled by the weight of node `r`. -/
theorem out1_apply (c : Dev nD) (r : Fin 100000) (g : Fin 64) :
    out1 m ρ c (ix2 r g) = GraphConv.lin (hidden m ρ c) (argW2 m c) r g * wt m ρ c r := by
  have h : W6 m ρ c (Proc.devRef .tc main_v28) = (dat1 (V5 m ρ) c).arrAt 4 cfg1.N := W6_arr m ρ c 4
  have hb : ∀ f : Fin 128, V5 m ρ c main_v27 (ix2 (0 : Fin 1) f) = argB1 m c f := fun f => by
    rw [V5_v27]; exact shapeCast_a_1a_apply _ _ 0 f
  unfold out1
  rw [h, RegionValue1.region1_out (V5 m ρ) c r g]
  simp only [RegionValue1.real]
  rw [show V5 m ρ c main_arg4 = m ((c : Thread nD τ).loc main_arg4) from W5_arg4 m ρ c,
    show V5 m ρ c main_v15 = weightCol m ρ c from W5_v15 m ρ c, weightCol_apply,
    show V5 m ρ c main_v26 = agg1 m ρ c from rfl]
  simp only [hb, agg1_apply, out0_apply]
  rfl

/-! ## Second layer -/

/-- The third region's first array: the second layer's messages summed over the edges that land on the node. -/
theorem agg2_apply (c : Dev nD) (n : Fin 100000) (g : Fin 64) :
    V7 m ρ c main_v38 (ix2 n g) = ∑ e ∈ inEdges m ρ c n, out1 m ρ c (ix2 (src m ρ c e) g) := by
  rw [V7_v38]
  exact scatterAdd_gather_zero_apply (by decide) scatter_S100000x64_S1700000x1_S1700000x64_1_0_0_1_wf
    gather_S100000x64_S1700000x1_S1700000x64_1_0_n_n_0_1_164_wf _ _ (fun _ => Ideal.ofBits_zero_f32) _ _ n g

/-- **The kernel program's result at an entry** is the two-layer network with the normalisation applied per node. -/
theorem result_apply (c : Dev nD) (v : Fin 100000) (g : Fin 64) :
    W8 m ρ c (Proc.devRef .tc main_v40) (ix2 v g)
      = GraphConv.netNode (inEdges m ρ c) (src m ρ c) (wt m ρ c) (argX m c) (argW1 m c) (argB1 m c) (argW2 m c) (argB2 m c) v g := by
  have h : W8 m ρ c (Proc.devRef .tc main_v40) = (dat2 (V7 m ρ) c).arrAt 3 cfg2.N := W8_arr m ρ c 3
  have hb : V7 m ρ c main_v39 (ix2 (0 : Fin 1) g) = argB2 m c g := by
    rw [V7_v39]; exact shapeCast_a_1a_apply _ _ 0 g
  rw [h, RegionValue.region2_out (V7 m ρ) c v g]
  simp only [RegionValue.real]
  rw [hb, show V7 m ρ c main_v15 = weightCol m ρ c from W7_v15 m ρ c, weightCol_apply, agg2_apply]
  simp only [out1_apply]
  rfl

end Cert.KernelIdeal.KValue

end
-- ==== Proof.LibEdgeWords.lean ====
/-
  Node numbers as machine words, and the degree weight, read at an entry.

  An edge list is a vector of 32-bit words; a gather or a scatter-add takes it as a column `[R, 1]`, and row `e`'s signed
  number is then the word at `e`. Numpy-style indexing first replaces a negative word `x` by `x + N` (a select on `x < 0`);
  a word that is already a node number, so nonnegative, is left alone. Hence an edge whose raw target word is the node `n`
  — the only edges a scatter-add onto `n` keeps — has the wrapped-and-clamped target `n` as well.

  The degree weight is `select (deg > 0) (rsqrt deg) 0`. On the extended reals the reciprocal square root of a positive
  number is a nonnegative real (it is `0` at the top), so the weight always lies in `[0, ⊤)`, whatever the degree.
-/
import Idealize.ShloMosaic.PureOps.Ideal
import Idealize.ShloMosaic.PureOps.Ideal.Laws
import Idealize.ShloMosaic.Lib.ValueIdx
import Idealize.ShloMosaic.Lib.Pipeline.Value
import proofs.«108439_j47674136985664_2_alg».proof.Proof.LibRowScatter

noncomputable section

namespace Idealize.ShloMosaic.EdgeWords

open Idealize.ShloMosaic Idealize.ShloMosaic.ValueIdx Idealize.ShloMosaic.RowScatter

/-- Row `e` of the column made from a vector of words is word `e`. -/
theorem column_apply {α : Type} {R : ℕ} (h : (⟨1, ![R]⟩ : Shape).BroadcastsInDim ⟨2, ![R, 1]⟩ ![0])
    (x : (⟨1, ![R]⟩ : Shape).Idx → α) (e : Fin R) (u : Fin 1) :
    broadcastInDim ⟨2, ![R, 1]⟩ ![0] h x (ix2 e u) = x (ix1 e) := by
  refine broadcastInDim_apply ![0] h x (ix2 e u) (ix1 e) fun a => ?_
  obtain rfl : a = 0 := Subsingleton.elim _ _
  have he := e.isLt
  show e.val = if R = 1 then 0 else e.val
  split <;> omega

/-- Row `e`'s signed number in the column made from a vector of words is the signed word at `e`. -/
theorem rowNo_column {R w : ℕ} (h : (⟨1, ![R]⟩ : Shape).BroadcastsInDim ⟨2, ![R, 1]⟩ ![0])
    (x : IVec ⟨1, ![R]⟩ w) (e : Fin R) :
    rowNo (broadcastInDim ⟨2, ![R, 1]⟩ ![0] h x) e = (x (ix1 e)).toInt := by
  unfold rowNo
  rw [column_apply]

/-- Wrapping negative words by adding `k` leaves a nonnegative word alone. -/
theorem wrap_apply_of_nonneg {s : Shape} (x z k : IVec s 32) (i : s.Idx) (hz : z i = 0#32) (hx : 0 ≤ (x i).toInt) :
    select (cmpi .slt x z) (addi x k) x i = x i := by
  rw [select_apply]
  have hc : cmpi .slt x z i = 0#1 := by
    show IntOp.cmpi .slt (x i) (z i) = 0#1
    rw [hz]
    unfold IntOp.cmpi
    have hs : (x i).slt 0#32 = false := by
      rw [BitVec.slt]
      simp only [BitVec.toInt_zero]
      exact decide_eq_false (not_lt.mpr hx)
    show BitVec.ofBool ((x i).slt 0#32) = 0#1
    rw [hs]; rfl
  rw [hc]
  rfl

/-- An edge whose raw target word is the node `n` has the wrapped and clamped target `n`. -/
theorem clampRow_wrap_of_rowNo {R N : ℕ} (hN : 0 < N)
    (h : (⟨1, ![R]⟩ : Shape).BroadcastsInDim ⟨2, ![R, 1]⟩ ![0]) (x z k : IVec ⟨1, ![R]⟩ 32) (hz : ∀ i, z i = 0#32)
    (e : Fin R) (n : Fin N) (hn : rowNo (broadcastInDim ⟨2, ![R, 1]⟩ ![0] h x) e = (n.val : Int)) :
    clampRow N hN (broadcastInDim ⟨2, ![R, 1]⟩ ![0] h (select (cmpi .slt x z) (addi x k) x)) e = n := by
  apply clampRow_of_rowNo
  rw [rowNo_column] at hn ⊢
  rw [wrap_apply_of_nonneg x z k (ix1 e) (hz _) (by rw [hn]; exact Int.natCast_nonneg _)]
  exact hn

/-- The reciprocal square root of a positive extended real is a nonnegative real. -/
theorem rsqrt_bounds (y : EReal) (hy : 0 < y) : 0 ≤ Ideal.rsqrt y ∧ Ideal.rsqrt y ≠ ⊤ := by
  induction y with
  | bot => exact absurd hy (by simp)
  | top => exact ⟨le_refl _, EReal.zero_ne_top⟩
  | coe r =>
    have hr : 0 < r := by exact_mod_cast hy
    rw [Ideal.rsqrt_coe, if_neg (not_lt.mpr hr.le), if_neg hr.ne']
    exact ⟨EReal.coe_nonneg.mpr (inv_nonneg.mpr (Real.sqrt_nonneg r)), EReal.coe_ne_top _⟩

/-- The degree weight `select (deg > 0) (rsqrt deg) 0` lies in `[0, ⊤)` at every node, whatever the degree. -/
theorem weight_bounds {s : Shape} (deg z z' : FVec Ideal s .f32) (hz : ∀ i, z i = 0) (hz' : ∀ i, z' i = 0) (i : s.Idx) :
    (0 : EReal) ≤ select (cmpf .ogt deg z) (Host.rsqrt deg) z' i ∧ select (cmpf .ogt deg z) (Host.rsqrt deg) z' i ≠ (⊤ : EReal) := by
  rw [select_apply]
  unfold Scalar.select
  split
  · rename_i hc
    have hpos : (0 : EReal) < deg i := by
      have h1 : Ideal.cmp .ogt (deg i) (z i) = 1 := hc
      rw [hz] at h1
      by_contra hn
      unfold Ideal.cmp at h1
      simp [hn] at h1
    exact rsqrt_bounds _ hpos
  · rw [hz']; exact ⟨le_refl _, EReal.zero_ne_top⟩

end Idealize.ShloMosaic.EdgeWords

end
-- ==== Proof.Bridge.lean ====
/-
  The two programs read one graph.

  Both programs build the edge list, the degrees and the node weight from the second argument by the same operations, in
  the same order; so the kernel program's source words, target words and weight, as its first region finds them, are the
  reference's stages of the same name applied to that argument, and so are the columns its gathers and scatter-adds take.
  Two facts about that graph carry the comparison: an edge whose raw target word is the node `n` has the wrapped, clamped
  target `n` (the reference looks the target's weight up per edge through that column), and the weight lies in `[0, ⊤)`.
-/
import proofs.«108439_j47674136985664_2_alg».proof.Proof.KernelHost
import proofs.«108439_j47674136985664_2_alg».proof.Proof.ReferenceRead
import proofs.«108439_j47674136985664_2_alg».proof.Proof.LibEdgeWords

set_option maxRecDepth 16384

noncomputable section

namespace Cert.Bridge

open Idealize.ShloMosaic Idealize.ShloMosaic.TcCoe Idealize.ShloMosaic.Tactic Idealize.ShloMosaic.StableHlo
open Idealize.ShloMosaic.ValueIdx Idealize.ShloMosaic.RowScatter Idealize.ShloMosaic.EdgeWords
open Idealize.SL.Sem
open Cert.KernelIdeal Cert.KernelIdeal.Gen Cert.KernelIdeal.Host
open Cert.ReferenceIdeal.Read

variable (m : (ℓ : Loc nD τ sig) → Buf (Elt Ideal) ℓ) (ρ : Dev nD → PrngReg)

/-- The edge list argument, as the kernel program is launched with it. -/
abbrev edges (c : Dev nD) : IVec Cert.ReferenceIdeal.S2x1600000 32 := m ((c : Thread nD τ).loc main_arg1)

/-! ## The kernel program's words and weight are the reference's stages -/

theorem srcWords_eq (c : Dev nD) : srcWords m ρ c = val_main_v5 (F := Ideal) (edges m c) := by
  unfold srcWords
  show StableHlo.after hostOps0_2 (StableHlo.after hostOps0_1 (StableHlo.after hostOps0 (W0 m ρ c))) (Proc.devRef .tc main_v5) = _
  unfold hostOps0_2 hostOps0_1 hostOps0
  after_results
  rfl

theorem dstWords_eq (c : Dev nD) : dstWords m ρ c = val_main_v6 (F := Ideal) (edges m c) := by
  unfold dstWords
  show StableHlo.after hostOps0_2 (StableHlo.after hostOps0_1 (StableHlo.after hostOps0 (W0 m ρ c))) (Proc.devRef .tc main_v6) = _
  unfold hostOps0_2 hostOps0_1 hostOps0
  after_results
  rfl

/-- The three operations of the select that defines the weight, from any contents: a select on the comparison's bits
    between the reciprocal square roots and the broadcast zero. -/
theorem where_step (V : Valuation τ sig (Elt Ideal)) :
    StableHlo.after (hostOps0_1 (F := Ideal)) V (Proc.devRef .tc main_v14)
      = select (V (Proc.devRef .tc main_v12)) (V (Proc.devRef .tc main_v13))
          (broadcastInDim S100000 ![] bcast_S_S100000 (V (Proc.devRef .tc main_cst_2))) := rfl

theorem weight_eq (c : Dev nD) : weight m ρ c = val_main_v14 (F := Ideal) (edges m c) := by
  unfold weight
  show StableHlo.after hostOps0_1 (StableHlo.after hostOps0 (W0 m ρ c)) (Proc.devRef .tc main_v14) = _
  rw [where_step]
  unfold hostOps0
  after_results
  rfl

/-- The column the kernel program's scatter-adds take is the reference's target column. -/
theorem dstCol_eq (c : Dev nD) : dstCol m ρ c = val_main_v9 (F := Ideal) (edges m c) := by
  unfold dstCol
  rw [dstWords_eq]
  rfl

/-- The column the kernel program's gathers take is the reference's wrapped source column. -/
theorem srcCol_eq (c : Dev nD) : srcCol m ρ c = val_main_v20 (F := Ideal) (edges m c) := by
  unfold srcCol
  rw [srcWords_eq]
  rfl

/-! ## Two facts about the graph, in the reference's vocabulary -/

/-- An edge that lands on node `n` has the wrapped, clamped target `n`. -/
theorem target_of_landing (x1 : IVec Cert.ReferenceIdeal.S2x1600000 32) (n : Fin 100000) (e : Fin 1700000)
    (h : rowNo (val_main_v9 (F := Ideal) x1) e = (n.val : Int)) :
    clampRow 100000 (by decide) (val_main_v27 (F := Ideal) x1) e = n :=
  clampRow_wrap_of_rowNo (by decide) _ (val_main_v6 (F := Ideal) x1) (val_main_v22 (F := Ideal)) (val_main_v24 (F := Ideal))
    (fun _ => rfl) e n h

/-- The node weight lies in `[0, ⊤)`. -/
theorem weight_bounds (x1 : IVec Cert.ReferenceIdeal.S2x1600000 32) (n : Fin 100000) :
    (0 : EReal) ≤ val_main_v14 (F := Ideal) x1 (ix1 n) ∧ val_main_v14 (F := Ideal) x1 (ix1 n) ≠ (⊤ : EReal) :=
  EdgeWords.weight_bounds (val_main_v10 (F := Ideal) x1) (val_main_v11 (F := Ideal)) (val_main_call0_v1 (F := Ideal))
    (fun _ => Ideal.ofBits_zero_f32) (fun _ => Ideal.ofBits_zero_f32) (ix1 n)

end Cert.Bridge

end
-- ==== Proof.lean ====
/-
  A two-layer graph convolution with symmetric degree normalisation: the kernel program against its jnp reference.

  Both programs build the same graph from the edge list — 1600000 given edges followed by one self loop per node — and the
  same node weight `d = select (deg > 0) (rsqrt deg) 0`. A layer sends `H·W` along the edges and sums at the targets. The
  reference scales each message by `d (source) · d (target)`, both looked up per edge. The kernel program scales row `r` of
  `H·W` by `d r` inside a region (so the gathered message already carries the source's weight), sums at the targets, and
  multiplies the sum at node `v` by `d v` inside the next region.

  On the extended reals the two agree because multiplication is associative and a factor in `[0, ⊤)` distributes over a
  finite sum whatever the summands; and `d` always lies in `[0, ⊤)`: the reciprocal square root of a positive extended
  real is a nonnegative real (zero at the top), and where the degree is not positive `d` is zero. An edge that the
  scatter-add onto `v` keeps has raw target word `v`, so its wrapped, clamped target — the row at which the reference looks
  the target's weight up — is `v` too. Nothing has to be finite, so the precondition is not used by the value claim.

  The frames of the two kernel programs are the generated ones; the reference's frame is its run with the result dropped.
  The kernel program's run names its result by the last boundary's contents, which is read at an entry region by region;
  the reference's run names its result by the composed stages, read at an entry stage by stage.
-/
import proofs.«108439_j47674136985664_2_alg».proof.Defs
import proofs.«108439_j47674136985664_2_alg».proof.Proof.Gen.Kernel
import proofs.«108439_j47674136985664_2_alg».proof.Proof.Gen.Kernel.Skeleton
import proofs.«108439_j47674136985664_2_alg».proof.Proof.Gen.Kernel.Launch
import proofs.«108439_j47674136985664_2_alg».proof.Proof.Gen.Kernel.Points
import proofs.«108439_j47674136985664_2_alg».proof.Proof.Gen.Kernel.Frame
import proofs.«108439_j47674136985664_2_alg».proof.Proof.Gen.KernelIdeal
import proofs.«108439_j47674136985664_2_alg».proof.Proof.Gen.KernelIdeal.Skeleton
import proofs.«108439_j47674136985664_2_alg».proof.Proof.Gen.KernelIdeal.Launch
import proofs.«108439_j47674136985664_2_alg».proof.Proof.Gen.KernelIdeal.Points
import proofs.«108439_j47674136985664_2_alg».proof.Proof.Gen.KernelIdeal.Frame
import proofs.«108439_j47674136985664_2_alg».proof.Proof.Gen.ReferenceIdeal
import proofs.«108439_j47674136985664_2_alg».proof.Proof.Gen.Pre_finite_inputs
import proofs.«108439_j47674136985664_2_alg».proof.Proof.ReferenceRun
import proofs.«108439_j47674136985664_2_alg».proof.Proof.ReferenceRead
import proofs.«108439_j47674136985664_2_alg».proof.Proof.RefValue
import proofs.«108439_j47674136985664_2_alg».proof.Proof.KernelRun
import proofs.«108439_j47674136985664_2_alg».proof.Proof.KernelValue
import proofs.«108439_j47674136985664_2_alg».proof.Proof.Bridge
import proofs.«108439_j47674136985664_2_alg».proof.Proof.LibGraphConv
import Idealize.ShloMosaic.Adequacy
import Idealize.ShloMosaic.Init

noncomputable section

namespace Cert.Proof

open Idealize.ShloMosaic Idealize.ShloMosaic.TcCoe Idealize.ShloMosaic.ValueIdx Idealize.ShloMosaic.RowScatter Idealize.SL.Sem

/-! ## The frames and the idealization -/

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing: the idealized kernel program is the printed one read at the extended reals. -/
theorem preserves : Cert.preserves_Kernel_KernelIdeal := trivial

/-! ## The two results agree entry by entry -/

section Entry

open Cert.KernelIdeal Cert.ReferenceIdeal.Read

variable (m : (ℓ : Loc Cert.KernelIdeal.nD Cert.KernelIdeal.τ Cert.KernelIdeal.sig) → Buf (Elt Ideal) ℓ)
  (ρ : Dev Cert.KernelIdeal.nD → PrngReg)

/-- Entry `(v, g)` of the kernel program's result is entry `(v, g)` of the reference's last stage at the same arguments:
    both are the two-layer network over one graph, the normalisation applied per node and per edge. -/
theorem entry_eq (c : Dev Cert.KernelIdeal.nD) (v : Fin 100000) (g : Fin 64) :
    Cert.KernelIdeal.Gen.W8 m ρ c (Proc.devRef .tc Cert.KernelIdeal.main_v40) (ix2 v g)
      = val_main_v64 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) (ix2 v g) := by
  rw [Cert.KernelIdeal.KValue.result_apply, Cert.ReferenceIdeal.RefValue.result_apply]
  have hP : Cert.KernelIdeal.KValue.inEdges m ρ c = fun n : Fin 100000 =>
      Finset.univ.filter fun e : Fin 1700000 => rowNo (val_main_v9 (F := Ideal) (Cert.Bridge.edges m c)) e = (n.val : Int) := by
    funext n; unfold Cert.KernelIdeal.KValue.inEdges; rw [Cert.Bridge.dstCol_eq]
  have hs : Cert.KernelIdeal.KValue.src m ρ c = fun e : Fin 1700000 =>
      clampRow 100000 (by decide) (val_main_v20 (F := Ideal) (Cert.Bridge.edges m c)) e := by
    funext e; unfold Cert.KernelIdeal.KValue.src; rw [Cert.Bridge.srcCol_eq]
  have hd : Cert.KernelIdeal.KValue.wt m ρ c = fun n : Fin 100000 => val_main_v14 (F := Ideal) (Cert.Bridge.edges m c) (ix1 n) := by
    funext n; unfold Cert.KernelIdeal.KValue.wt; rw [Cert.Bridge.weight_eq]
  rw [hP, hs, hd,
    GraphConv.netNode_eq_netEdge _ _
      (fun e : Fin 1700000 => clampRow 100000 (by decide) (val_main_v27 (F := Ideal) (Cert.Bridge.edges m c)) e) _
      (fun n => (Cert.Bridge.weight_bounds (Cert.Bridge.edges m c) n).1)
      (fun n => (Cert.Bridge.weight_bounds (Cert.Bridge.edges m c) n).2)
      (fun n e he => Cert.Bridge.target_of_landing (Cert.Bridge.edges m c) n e (Finset.mem_filter.mp he).2)]
  rfl

end Entry

/-- Both idealized programs run from memories that agree on the arguments and end with equal results: the kernel program's
    result array at the last boundary's contents, the reference's at its last stage, equal entry by entry. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.KernelIdeal.Gen.W8 m ρ c (Proc.devRef .tc Cert.KernelIdeal.main_v40),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2.1, (hagree c).2.2.1, (hagree c).2.2.2.1,
    (hagree c).2.2.2.2.1, (hagree c).2.2.2.2.2]
  funext i
  obtain ⟨v, g, rfl⟩ : ∃ (v : Fin 100000) (g : Fin 64), i = ix2 v g := ⟨i 0, i 1, eq_ix2 i⟩
  exact (entry_eq m ρ c v g).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
